-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S256x16384 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64x128 : Shape := ⟨2, ![64, 128]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S16384x64 .f32) (main_arg1 : FVec F S64x128 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S16384x64 : Shape := ⟨2, ![16384, 64]⟩
abbrev S64x128 : Shape := ⟨2, ![64, 128]⟩
abbrev S64x64 : Shape := ⟨2, ![64, 64]⟩
abbrev S64 : Shape := ⟨1, ![64]⟩
abbrev S1x64 : Shape := ⟨2, ![1, 64]⟩
abbrev S2048x64 : Shape := ⟨2, ![2048, 64]⟩
abbrev S256x64 : Shape := ⟨2, ![256, 64]⟩
abbrev S256x16384 : Shape := ⟨2, ![256, 16384]⟩
abbrev S256 : Shape := ⟨1, ![256]⟩
abbrev S256x1 : Shape := ⟨2, ![256, 1]⟩

abbrev nBuf : Space → Nat
  | .hbm => 19
  | .vmem => 20
  | .smem => 0
  | _ => 0

abbrev bufTy : (tb : Table) → Fin (tcTables nBuf tb) → BufTy
  | .hbm, ⟨0, _⟩ => ⟨S16384x64, .f32⟩
  | .hbm, ⟨1, _⟩ => ⟨S64x128, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S16384x64, .f32⟩
  | .hbm, ⟨16, _⟩ => ⟨S16384x64, .f32⟩
  | .hbm, ⟨17, _⟩ => ⟨S16384x64, .bf16⟩
  | .hbm, ⟨18, _⟩ => ⟨S16384x64, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .bf16⟩
  | .local _ .vmem, ⟨13, _⟩ => ⟨S2048x64, .bf16⟩
  | .local _ .vmem, ⟨14, _⟩ => ⟨S256x64, .f32⟩
  | .local _ .vmem, ⟨15, _⟩ => ⟨S256x64, .f32⟩
  | .local _ .vmem, ⟨16, _⟩ => ⟨S16384x64, .f32⟩
  | .local _ .vmem, ⟨17, _⟩ => ⟨S16384x64, .bf16⟩
  | .local _ .vmem, ⟨18, _⟩ => ⟨S256x64, .f32⟩
  | .local _ .vmem, ⟨19, _⟩ => ⟨S256x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16384x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S64x128_S64x64_0_0 : S64x128.Slices ![0, 0] S64x64
  slices_S64x128_S64x64_0_64 : S64x128.Slices ![0, 64] S64x64
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S2048x64 : S1x64.Broadcasts S2048x64
  bitsLt_bf16_f32 : FTy.bits .bf16 < FTy.bits .f32
  packedbf16_S2048x64_S2048x64_0_0 : (Rect.unit (s := S2048x64) ![0, 0] S2048x64.size inb_S2048x64_S2048x64_0_0).PackedRows (EltTy.packing .bf16)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  reduces_S256x16384_S256 : S256x16384.Reduces [1] S256
  shapeCasts_S256_S256x1 : S256.ShapeCasts S256x1
  broadcasts_S256x1_S256x16384 : S256x1.Broadcasts S256x16384
  broadcasts_S256x1_S256x64 : S256x1.Broadcasts S256x64
  dot_S64x64_S64x64_S64x64_1_0_0_1_n_n_wf : DotDims.WF S64x64 S64x64 S64x64 [1] [0] [0] [1] [] []
  dot_S2048x64_S64x64_S2048x64_1_0_0_1_n_n_wf : DotDims.WF S2048x64 S64x64 S2048x64 [1] [0] [0] [1] [] []
  dot_S256x64_S16384x64_S256x16384_1_1_0_0_n_n_wf : DotDims.WF S256x64 S16384x64 S256x16384 [1] [1] [0] [0] [] []
  dot_S256x16384_S16384x64_S256x64_1_0_0_1_n_n_wf : DotDims.WF S256x16384 S16384x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x64.size a ≤ S16384x64.size a
  hwx0_7 : ∀ i : grid0.Coords, EltTy.bits .f32 = 32 ∨ (Rect.block (s := S16384x64) S2048x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x64.size a ≤ S16384x64.size a
  hwx0_8 : ∀ i : grid0.Coords, EltTy.bits .f32 = 32 ∨ (Rect.block (s := S16384x64) S2048x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x64.size a ≤ S16384x64.size a
  hwx0_9 : ∀ i : grid0.Coords, EltTy.bits .bf16 = 32 ∨ (Rect.block (s := S16384x64) S2048x64.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S16384x64.size a
  hwx1_0 : ∀ i : grid1.Coords, EltTy.bits .f32 = 32 ∨ (Rect.block (s := S16384x64) S256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16384x64.size a ≤ S16384x64.size a
  hwx1_2 : ∀ i : grid1.Coords, EltTy.bits .bf16 = 32 ∨ (Rect.block (s := S16384x64) S16384x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S16384x64.size a
  hwx1_3 : ∀ i : grid1.Coords, EltTy.bits .f32 = 32 ∨ (Rect.block (s := S16384x64) S256x64.size (cc1_transform_3 i) (hinb1_3 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S256x64_S16384x64_S256x16384_1_1_0_0_n_n : DotDims S256x64 S16384x64 S256x16384 where
  lhsContracting := [1]
  rhsContracting := [1]
  lhsNonContracting := [0]
  rhsNonContracting := [0]
  lhsBatch := []
  rhsBatch := []
  wf := dot_S256x64_S16384x64_S256x16384_1_1_0_0_n_n_wf
def dot_S256x16384_S16384x64_S256x64_1_0_0_1_n_n : DotDims S256x16384 S16384x64 S256x64 where
  lhsContracting := [1]
  rhsContracting := [0]
  lhsNonContracting := [0]
  rhsNonContracting := [1]
  lhsBatch := []
  rhsBatch := []
  wf := dot_S256x16384_S16384x64_S256x64_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S2048x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S2048x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S2048x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7_0) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S16384x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x64 : Shape := ⟨2, ![16384, 64]⟩
abbrev S64x128 : Shape := ⟨2, ![64, 128]⟩
abbrev S64x64 : Shape := ⟨2, ![64, 64]⟩
abbrev S64 : Shape := ⟨1, ![64]⟩
abbrev S1x64 : Shape := ⟨2, ![1, 64]⟩
abbrev S64x16384 : Shape := ⟨2, ![64, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x128, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S16384x64, .f32⟩
  | .hbm, ⟨12, _⟩ => ⟨S64x64, .f32⟩
  | .hbm, ⟨13, _⟩ => ⟨S16384x64, .f32⟩
  | .hbm, ⟨14, _⟩ => ⟨S1x64, .f32⟩
  | .hbm, ⟨15, _⟩ => ⟨S16384x64, .f32⟩
  | .hbm, ⟨16, _⟩ => ⟨S16384x64, .f32⟩
  | .hbm, ⟨17, _⟩ => ⟨S64x64, .f32⟩
  | .hbm, ⟨18, _⟩ => ⟨S16384x64, .f32⟩
  | .hbm, ⟨19, _⟩ => ⟨S64x64, .f32⟩
  | .hbm, ⟨20, _⟩ => ⟨S16384x64, .f32⟩
  | .hbm, ⟨21, _⟩ => ⟨S1x64, .f32⟩
  | .hbm, ⟨22, _⟩ => ⟨S16384x64, .f32⟩
  | .hbm, ⟨23, _⟩ => ⟨S16384x64, .f32⟩
  | .hbm, ⟨24, _⟩ => ⟨S64x64, .f32⟩
  | .hbm, ⟨25, _⟩ => ⟨S16384x64, .f32⟩
  | .hbm, ⟨26, _⟩ => ⟨S1x64, .f32⟩
  | .hbm, ⟨27, _⟩ => ⟨S16384x64, .f32⟩
  | .hbm, ⟨28, _⟩ => ⟨S16384x64, .f32⟩
  | .hbm, ⟨29, _⟩ => ⟨S64x16384, .f32⟩
  | .hbm, ⟨30, _⟩ => ⟨S16384x16384, .f32⟩
  | .hbm, ⟨31, _⟩ => ⟨S_, .f32⟩
  | .hbm, ⟨32, _⟩ => ⟨S16384x16384, .f32⟩
  | .hbm, ⟨33, _⟩ => ⟨S16384x16384, .f32⟩
  | .hbm, ⟨34, _⟩ => ⟨S_, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384x1, .f32⟩
  | .hbm, ⟨40, _⟩ => ⟨S16384x16384, .f32⟩
  | .hbm, ⟨41, _⟩ => ⟨S16384x16384, .f32⟩
  | .hbm, ⟨42, _⟩ => ⟨S16384x16384, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x16384, .f32⟩
  | .hbm, ⟨47, _⟩ => ⟨S16384x16384, .f32⟩
  | .hbm, ⟨48, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  slices_S64x128_S64x64_0_0 : S64x128.Slices ![0, 0] S64x64
  slices_S64x128_S64x64_0_64 : S64x128.Slices ![0, 64] S64x64
  transposes_S64x64_S64x64_1_0 : S64x64.Transposes [1, 0] S64x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  dot_S16384x64_S64x64_S16384x64_1_0_0_1_n_n_wf : DotDims.WF S16384x64 S64x64 S16384x64 [1] [0] [0] [1] [] []
  dot_S16384x64_S64x16384_S16384x16384_1_0_0_1_n_n_wf : DotDims.WF S16384x64 S64x16384 S16384x16384 [1] [0] [0] [1] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.KernelRun.lean ====
import proofs.«130108_j65481071401183_2_alg».proof.Proof.Gen.KernelIdeal.Frame

/-! # The idealized kernel's run, with its result named

The program is two kernel regions after a stretch of host operations. Its buffer contents at the segment boundaries are a
fold from the launch memory: after the host operations (`W1`), after the projection region (`W2`: the three projected arrays
at what that region's write-backs leave, everything else as before) and after the attention region (`W3`). Every weakly fair
execution terminates without a fault in a state whose unscoped buffers hold `W3`; read at the result buffer this names the
result, and read at the argument buffers it gives them back as launched. -/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and every argument buffer as launched. -/
theorem run_result : θ_run defs (onTc (τ := τ) (main (F := F))) ⟨m, fun _ => 0, ρ⟩ (fun r => ∀ c : Dev nD,
      r.2.mem ((c.tc : Thread nD τ).loc main_v8) = W3 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v8 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.KRun

end
-- ==== Proof.Dots.lean ====
import proofs.«130108_j65481071401183_2_alg».proof.KernelIdeal
import proofs.«130108_j65481071401183_2_alg».proof.Proof.Gen.KernelIdeal
import Idealize.ShloMosaic.Lib.Pipeline.Value
import Idealize.ShloMosaic.Lib.ValueIdx
import Idealize.ShloMosaic.PureOps.Ideal.Laws

/-! # The program's four matrix products read at an entry

On the extended reals each matrix product of the idealized kernel, into a zero accumulator, is at entry (p, q) the plain sum
over the contracted coordinate `k` of the products of the operands' entries: rows times columns for the projections
(`l (p, k) · r (k, q)`), rows times rows for the scores (`l (p, k) · r (q, k)`: both operands are contracted along their
second axis), and the host's product that folds a weight matrix into its mixing matrix. The contraction index of the
operation's record is re-indexed by its one coordinate. -/

noncomputable section

namespace Cert.KernelIdeal.Dots

open Cert.KernelIdeal Idealize.ShloMosaic Idealize.ShloMosaic.ValueIdx

/-- A projection's product: a 2048 × 64 block of token rows times a 64 × 64 matrix. -/
theorem proj_apply (l : FVec Ideal S2048x64 .f32) (r : FVec Ideal S64x64 .f32) (p : Fin 2048) (q : Fin 64) :
    matmul dot_S2048x64_S64x64_S2048x64_1_0_0_1_n_n none l r (constant S2048x64 .f32 0x00000000#32) (ix2 p q) = ∑ k : Fin 64, l (ix2 p k) * r (ix2 k q) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p q) ((contrEquiv1 dot_S2048x64_S64x64_S2048x64_1_0_0_1_n_n 64 rfl rfl).symm k) = ix2 p k := funext fun a => Fin.ext (by
    match a with
    | ⟨0, _⟩ =>
      show (dot_S2048x64_S64x64_S2048x64_1_0_0_1_n_n.lhsIdx (ix2 p q) _ 0).val = p.val
      unfold DotDims.lhsIdx
      rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
      rfl
    | ⟨1, _⟩ =>
      exact (dot_S2048x64_S64x64_S2048x64_1_0_0_1_n_n.lhsIdx_val_of_single rfl _ _).trans hk)
  have er : dot_S2048x64_S64x64_S2048x64_1_0_0_1_n_n.rhsIdx (ix2 p q) ((contrEquiv1 dot_S2048x64_S64x64_S2048x64_1_0_0_1_n_n 64 rfl rfl).symm k) = ix2 k q := funext fun a => Fin.ext (by
    match a with
    | ⟨0, _⟩ =>
      exact (dot_S2048x64_S64x64_S2048x64_1_0_0_1_n_n.rhsIdx_val_of_single rfl _ _).trans hk
    | ⟨1, _⟩ =>
      show (dot_S2048x64_S64x64_S2048x64_1_0_0_1_n_n.rhsIdx (ix2 p q) _ 1).val = q.val
      unfold DotDims.rhsIdx
      rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
      rfl)
  rw [el, er]

/-- The scores: a 256 × 64 block of queries against all 16384 keys, both contracted along the feature axis. -/
theorem scores_apply (l : FVec Ideal S256x64 .f32) (r : FVec Ideal S16384x64 .f32) (p : Fin 256) (q : Fin 16384) :
    matmul dot_S256x64_S16384x64_S256x16384_1_1_0_0_n_n none l r (constant S256x16384 .f32 0x00000000#32) (ix2 p q) = ∑ k : Fin 64, l (ix2 p k) * r (ix2 q k) := by
  simp only [matmul]
  rw [Ideal.matmul_constant_zero_apply, ← Equiv.sum_comp (contrEquiv1 dot_S256x64_S16384x64_S256x16384_1_1_0_0_n_n 64 rfl rfl).symm]
  refine Finset.sum_congr rfl fun k _ => ?_
  have hk := contrEquiv1_symm_val dot_S256x64_S16384x64_S256x16384_1_1_0_0_n_n 64 rfl rfl k
  have el : dot_S256x64_S16384x64_S256x16384_1_1_0_0_n_n.lhsIdx (ix2 p q) ((contrEquiv1 dot_S256x64_S16384x64_S256x16384_1_1_0_0_n_n 64 rfl rfl).symm k) = ix2 p k := funext fun a => Fin.ext (by
    match a with
    | ⟨0, _⟩ =>
      show (dot_S256x64_S16384x64_S256x16384_1_1_0_0_n_n.lhsIdx (ix2 p q) _ 0).val = p.val
      unfold DotDims.lhsIdx
      rw [dif_neg (show ¬(0 : Fin S256x64.rank) ∈ dot_S256x64_S16384x64_S256x16384_1_1_0_0_n_n.lhsBatch by decide), dif_pos (show (0 : Fin S256x64.rank) ∈ dot_S256x64_S16384x64_S256x16384_1_1_0_0_n_n.lhsNonContracting by decide)]
      rfl
    | ⟨1, _⟩ =>
      exact (dot_S256x64_S16384x64_S256x16384_1_1_0_0_n_n.lhsIdx_val_of_single rfl _ _).trans hk)
  have er : dot_S256x64_S16384x64_S256x16384_1_1_0_0_n_n.rhsIdx (ix2 p q) ((contrEquiv1 dot_S256x64_S16384x64_S256x16384_1_1_0_0_n_n 64 rfl rfl).symm k) = ix2 q k := funext fun a => Fin.ext (by
    match a with
    | ⟨0, _⟩ =>
      show (dot_S256x64_S16384x64_S256x16384_1_1_0_0_n_n.rhsIdx (ix2 p q) _ 0).val = q.val
      unfold DotDims.rhsIdx
      rw [dif_neg (show ¬(0 : Fin S16384x64.rank) ∈ dot_S256x64_S16384x64_S256x16384_1_1_0_0_n_n.rhsBatch by decide), dif_pos (show (0 : Fin S16384x64.rank) ∈ dot_S256x64_S16384x64_S256x16384_1_1_0_0_n_n.rhsNonContracting by decide)]
      rfl
    | ⟨1, _⟩ =>
      exact (dot_S256x64_S16384x64_S256x16384_1_1_0_0_n_n.rhsIdx_val_of_single rfl _ _).trans hk)
  rw [el, er]

/-- The weighted sum of the values: 256 × 16384 weights times the 16384 × 64 values. -/
theorem mix_apply (l : FVec Ideal S256x16384 .bf16) (r : FVec Ideal S16384x64 .bf16) (p : Fin 256) (q : Fin 64) :
    matmul dot_S256x16384_S16384x64_S256x64_1_0_0_1_n_n none l r (constant S256x64 .f32 0x00000000#32) (ix2 p q) = ∑ k : Fin 16384, l (ix2 p k) * r (ix2 k q) := by
  simp only [matmul]
  rw [Ideal.matmul_constant_zero_apply, ← Equiv.sum_comp (contrEquiv1 dot_S256x16384_S16384x64_S256x64_1_0_0_1_n_n 16384 rfl rfl).symm]
  refine Finset.sum_congr rfl fun k _ => ?_
  have hk := contrEquiv1_symm_val dot_S256x16384_S16384x64_S256x64_1_0_0_1_n_n 16384 rfl rfl k
  have el : dot_S256x16384_S16384x64_S256x64_1_0_0_1_n_n.lhsIdx (ix2 p q) ((contrEquiv1 dot_S256x16384_S16384x64_S256x64_1_0_0_1_n_n 16384 rfl rfl).symm k) = ix2 p k := funext fun a => Fin.ext (by
    match a with
    | ⟨0, _⟩ =>
      show (dot_S256x16384_S16384x64_S256x64_1_0_0_1_n_n.lhsIdx (ix2 p q) _ 0).val = p.val
      unfold DotDims.lhsIdx
      rw [dif_neg (show ¬(0 : Fin S256x16384.rank) ∈ dot_S256x16384_S16384x64_S256x64_1_0_0_1_n_n.lhsBatch by decide), dif_pos (show (0 : Fin S256x16384.rank) ∈ dot_S256x16384_S16384x64_S256x64_1_0_0_1_n_n.lhsNonContracting by decide)]
      rfl
    | ⟨1, _⟩ =>
      exact (dot_S256x16384_S16384x64_S256x64_1_0_0_1_n_n.lhsIdx_val_of_single rfl _ _).trans hk)
  have er : dot_S256x16384_S16384x64_S256x64_1_0_0_1_n_n.rhsIdx (ix2 p q) ((contrEquiv1 dot_S256x16384_S16384x64_S256x64_1_0_0_1_n_n 16384 rfl rfl).symm k) = ix2 k q := funext fun a => Fin.ext (by
    match a with
    | ⟨0, _⟩ =>
      exact (dot_S256x16384_S16384x64_S256x64_1_0_0_1_n_n.rhsIdx_val_of_single rfl _ _).trans hk
    | ⟨1, _⟩ =>
      show (dot_S256x16384_S16384x64_S256x64_1_0_0_1_n_n.rhsIdx (ix2 p q) _ 1).val = q.val
      unfold DotDims.rhsIdx
      rw [dif_neg (show ¬(1 : Fin S16384x64.rank) ∈ dot_S256x16384_S16384x64_S256x64_1_0_0_1_n_n.rhsBatch by decide), dif_pos (show (1 : Fin S16384x64.rank) ∈ dot_S256x16384_S16384x64_S256x64_1_0_0_1_n_n.rhsNonContracting by decide)]
      rfl)
  rw [el, er]

/-- The host's product of a weight matrix with a mixing matrix. -/
theorem fold_apply (l : FVec Ideal S64x64 .f32) (r : FVec Ideal S64x64 .f32) (p : Fin 64) (q : Fin 64) :
    Host.dotGeneral dot_S64x64_S64x64_S64x64_1_0_0_1_n_n none l r (ix2 p q) = ∑ k : Fin 64, l (ix2 p k) * r (ix2 k q) := by
  simp only [Host.dotGeneral]
  rw [Ideal.dotGeneral_apply, ← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 p q) ((contrEquiv1 dot_S64x64_S64x64_S64x64_1_0_0_1_n_n 64 rfl rfl).symm k) = ix2 p k := funext fun a => Fin.ext (by
    match a with
    | ⟨0, _⟩ =>
      show (dot_S64x64_S64x64_S64x64_1_0_0_1_n_n.lhsIdx (ix2 p q) _ 0).val = p.val
      unfold DotDims.lhsIdx
      rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
      rfl
    | ⟨1, _⟩ =>
      exact (dot_S64x64_S64x64_S64x64_1_0_0_1_n_n.lhsIdx_val_of_single rfl _ _).trans hk)
  have er : dot_S64x64_S64x64_S64x64_1_0_0_1_n_n.rhsIdx (ix2 p q) ((contrEquiv1 dot_S64x64_S64x64_S64x64_1_0_0_1_n_n 64 rfl rfl).symm k) = ix2 k q := funext fun a => Fin.ext (by
    match a with
    | ⟨0, _⟩ =>
      exact (dot_S64x64_S64x64_S64x64_1_0_0_1_n_n.rhsIdx_val_of_single rfl _ _).trans hk
    | ⟨1, _⟩ =>
      show (dot_S64x64_S64x64_S64x64_1_0_0_1_n_n.rhsIdx (ix2 p q) _ 1).val = q.val
      unfold DotDims.rhsIdx
      rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
      rfl)
  rw [el, er]

end Cert.KernelIdeal.Dots

end
-- ==== Proof.LibAttention.lean ====
import Idealize.ShloMosaic.PureOps.Ideal

/-! # Softmax attention with folded projections, on the extended reals

Tokens are indexed by a finite type `N`, features by a finite type `D`. From token rows `X`, two mixing matrices `R`, `E`,
three weight matrices `Wq`, `Wk`, `Wv`, three biases and a scale `σ`, single-head attention is computed in two arrangements.

* The FOLDED arrangement multiplies each weight matrix into its mixing matrix first (`Wq · R`, `Wk · E`), scales the queries by
  `σ` before the scores are taken, and divides by the softmax normalizer AFTER the weighted sum of the values:
  `(∑ⱼ pⱼ · vⱼ) / (∑ⱼ pⱼ)` with `pⱼ = exp (sⱼ − maxⱼ sⱼ)`.
* The TWO-STEP arrangement applies the mixing matrix and then the weight matrix to each token, scales the scores
  `(q · k) · σ`, and normalizes the weights BEFORE the weighted sum: `∑ⱼ (pⱼ / ∑ pⱼ) · vⱼ`.

Over the reals the two agree: matrix products associate, a common factor moves across a finite sum, and a finite sum divided by
a nonzero number is the sum of the quotients. On the extended reals these laws fail at the infinities, so the statement
assumes every input entry is a real number; then every intermediate quantity is a real (the row maximum of finitely many reals
over a nonempty index type, an exponential of a real), and the normalizer is a sum of positive reals, hence nonzero.
No program is mentioned here. -/

noncomputable section

open scoped BigOperators

namespace Cert.LibAttention

open Idealize.ShloMosaic

/-- Every entry of a two-index family is a real number. -/
def Real2 {α β : Type} (f : α → β → EReal) : Prop := ∀ a b, ∃ r : ℝ, f a b = (r : EReal)
/-- Every entry of a one-index family is a real number. -/
def Real1 {α : Type} (f : α → EReal) : Prop := ∀ a, ∃ r : ℝ, f a = (r : EReal)

variable {N D : Type} [Fintype N] [Fintype D]
variable (X : N → D → EReal) (R E Wq Wk Wv : D → D → EReal) (bq bk bv : D → EReal) (σ : EReal)

/-! ## The folded arrangement -/

/-- Scaled queries through the folded matrix `Wq · R`. -/
def fQ (n : N) (c : D) : EReal := ((∑ a, X n a * (∑ b, Wq c b * R b a)) + bq c) * σ
/-- Keys through the folded matrix `Wk · E`. -/
def fK (n : N) (c : D) : EReal := (∑ a, X n a * (∑ b, Wk c b * E b a)) + bk c
/-- Values. -/
def fV (n : N) (c : D) : EReal := (∑ a, X n a * Wv c a) + bv c
/-- Scores of the scaled queries against the keys. -/
def fS (n j : N) : EReal := ∑ c, fQ X R Wq bq σ n c * fK X E Wk bk j c
/-- Row maximum of the scores, from the bottom element. -/
def fM (n : N) : EReal := (Finset.univ : Finset N).fold max ⊥ (fun j => fS X R E Wq Wk bq bk σ n j)
/-- Unnormalized weights. -/
def fP (n j : N) : EReal := Ideal.exp (fS X R E Wq Wk bq bk σ n j - fM X R E Wq Wk bq bk σ n)
/-- Weighted sum of the values, divided by the normalizer afterwards. -/
def fO (n : N) (c : D) : EReal :=
  Ideal.div (∑ j, fP X R E Wq Wk bq bk σ n j * fV X Wv bv j c) (∑ j, fP X R E Wq Wk bq bk σ n j)

/-! ## The two-step arrangement -/

/-- Queries: the mixing matrix, then the weight matrix. -/
def gQ (n : N) (c : D) : EReal := (∑ b, (∑ a, X n a * R b a) * Wq c b) + bq c
/-- Keys: the mixing matrix, then the weight matrix. -/
def gK (n : N) (c : D) : EReal := (∑ b, (∑ a, X n a * E b a) * Wk c b) + bk c
/-- Scores, scaled after the product. -/
def gS (n j : N) : EReal := (∑ c, gQ X R Wq bq n c * gK X E Wk bk j c) * σ
/-- Row maximum of the scaled scores, from the bottom element. -/
def gM (n : N) : EReal := (Finset.univ : Finset N).fold max ⊥ (fun j => gS X R E Wq Wk bq bk σ n j)
/-- Unnormalized weights. -/
def gP (n j : N) : EReal := Ideal.exp (gS X R E Wq Wk bq bk σ n j - gM X R E Wq Wk bq bk σ n)
/-- Weighted sum of the values with weights normalized first. -/
def gO (n : N) (c : D) : EReal :=
  ∑ j, Ideal.div (gP X R E Wq Wk bq bk σ n j) (∑ j', gP X R E Wq Wk bq bk σ n j') * fV X Wv bv j c

/-! ## Real entries: coercions move outward

When every entry is the coercion of a real, each intermediate quantity of either arrangement is the coercion of the
corresponding real expression, because the coercion commutes with products, sums and finite sums. -/

/-- The coercion of a finite sum of reals is the sum of the coercions (the coercion is additive). -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Entrywise coercion of a real two-index family. -/
def c2 {α β : Type} (f : α → β → ℝ) : α → β → EReal := fun a b => (f a b : EReal)
/-- Entrywise coercion of a real one-index family. -/
def c1 {α : Type} (f : α → ℝ) : α → EReal := fun a => (f a : EReal)

/-- A two-index family of real entries is the entrywise coercion of a real family. -/
theorem Real2.exists_coe {α β : Type} {f : α → β → EReal} (h : Real2 f) : ∃ g : α → β → ℝ, f = c2 g := by
  choose g hg using h
  exact ⟨g, funext fun a => funext fun b => hg a b⟩

/-- A one-index family of real entries is the entrywise coercion of a real family. -/
theorem Real1.exists_coe {α : Type} {f : α → EReal} (h : Real1 f) : ∃ g : α → ℝ, f = c1 g := by
  choose g hg using h
  exact ⟨g, funext hg⟩

section RealForms

variable (x : N → D → ℝ) (r e wq wk wv m w : D → D → ℝ) (aq ak av b : D → ℝ) (s : ℝ)

/-- Matrix products associate: a row through the folded matrix is the row through the mixing matrix, then the weight
matrix. Both sides are the same double sum, by distributing and exchanging the order of summation. -/
theorem fold_eq (y : D → ℝ) (u : D → ℝ) :
    ∑ a, y a * (∑ b', u b' * m b' a) = ∑ b', (∑ a, y a * m b' a) * u b' := by
  simp only [Finset.mul_sum, Finset.sum_mul]
  rw [Finset.sum_comm]
  exact Finset.sum_congr rfl fun b' _ => Finset.sum_congr rfl fun a _ => by ring

/-- The real projection: the mixing matrix, then the weight matrix, plus the bias. -/
def rProj (n : N) (c : D) : ℝ := (∑ b', (∑ a, x n a * m b' a) * w c b') + b c

/-- The real scaled score. -/
def rS (n j : N) : ℝ := (∑ c, rProj x r wq aq n c * rProj x e wk ak j c) * s

/-- The real value row. -/
def rV (n : N) (c : D) : ℝ := (∑ a, x n a * wv c a) + av c

theorem gQ_coe (n : N) (c : D) : gQ (c2 x) (c2 m) (c2 w) (c1 b) n c = (rProj x m w b n c : EReal) := by
  simp only [gQ, rProj, c1, c2, coe_sum, EReal.coe_add, EReal.coe_mul]

theorem gK_coe (n : N) (c : D) : gK (c2 x) (c2 m) (c2 w) (c1 b) n c = (rProj x m w b n c : EReal) := by
  simp only [gK, rProj, c1, c2, coe_sum, EReal.coe_add, EReal.coe_mul]

theorem fK_coe (n : N) (c : D) : fK (c2 x) (c2 m) (c2 w) (c1 b) n c = (rProj x m w b n c : EReal) := by
  rw [rProj, ← fold_eq m (x n) (w c)]
  simp only [fK, c1, c2, coe_sum, EReal.coe_add, EReal.coe_mul]

theorem fQ_coe (n : N) (c : D) :
    fQ (c2 x) (c2 m) (c2 w) (c1 b) (s : EReal) n c = ((rProj x m w b n c * s : ℝ) : EReal) := by
  rw [rProj, ← fold_eq m (x n) (w c)]
  simp only [fQ, c1, c2, coe_sum, EReal.coe_add, EReal.coe_mul]

theorem fV_coe (n : N) (c : D) : fV (c2 x) (c2 wv) (c1 av) n c = (rV x wv av n c : EReal) := by
  simp only [fV, rV, c1, c2, coe_sum, EReal.coe_add, EReal.coe_mul]

/-- The two-step scores are the coercions of the real scaled scores. -/
theorem gS_coe (n j : N) :
    gS (c2 x) (c2 r) (c2 e) (c2 wq) (c2 wk) (c1 aq) (c1 ak) (s : EReal) n j = (rS x r e wq wk aq ak s n j : EReal) := by
  simp only [gS, gQ_coe, gK_coe, rS, coe_sum, EReal.coe_mul]

/-- The folded scores are the coercions of the same real scaled scores: the common factor moves across the finite sum. -/
theorem fS_coe (n j : N) :
    fS (c2 x) (c2 r) (c2 e) (c2 wq) (c2 wk) (c1 aq) (c1 ak) (s : EReal) n j = (rS x r e wq wk aq ak s n j : EReal) := by
  have h : rS x r e wq wk aq ak s n j = ∑ c, (rProj x r wq aq n c * s) * rProj x e wk ak j c := by
    rw [rS, Finset.sum_mul]
    exact Finset.sum_congr rfl fun c _ => by ring
  rw [h]
  simp only [fS, fQ_coe, fK_coe, coe_sum, EReal.coe_mul]

end RealForms

/-! ## The row maximum and the normalizer -/

/-- The running maximum, from the bottom element, of finitely many reals over a nonempty set is a real: the bottom
element is absorbed by the first entry, and the maximum of two reals is a real. -/
theorem fold_max_real {ι : Type} (t : ι → ℝ) (s : Finset ι) (hs : s.Nonempty) :
    ∃ m : ℝ, s.fold max ⊥ (fun j => (t j : EReal)) = (m : EReal) := by
  classical
  induction s using Finset.induction_on with
  | empty => exact absurd hs Finset.not_nonempty_empty
  | insert a s ha ih =>
    rw [Finset.fold_insert ha]
    rcases s.eq_empty_or_nonempty with rfl | hne
    · exact ⟨t a, by rw [Finset.fold_empty, max_bot_right]⟩
    · obtain ⟨m, hm⟩ := ih hne
      exact ⟨max (t a) m, by rw [hm, EReal.coe_strictMono.monotone.map_max]⟩

/-- With positive real weights over a nonempty index type the normalizer is a nonzero real, so dividing the weighted sum
by it is multiplying by its reciprocal, and the reciprocal distributes over the finite sum. -/
theorem div_sum_eq (p v : N → ℝ) (hp : ∀ j, 0 < p j) (n : N) :
    Ideal.div (∑ j, (p j : EReal) * (v j : EReal)) (∑ j, (p j : EReal))
      = ∑ j, Ideal.div (p j : EReal) (∑ j', (p j' : EReal)) * (v j : EReal) := by
  have hL : (∑ j, p j) ≠ 0 := (Finset.sum_pos (fun j _ => hp j) ⟨n, Finset.mem_univ n⟩).ne'
  rw [← coe_sum Finset.univ p]
  simp only [Ideal.div_coe hL, ← EReal.coe_mul, ← coe_sum]
  congr 1
  rw [Finset.sum_mul]
  exact Finset.sum_congr rfl fun j _ => by ring

/-- The two arrangements agree when every input is the entrywise coercion of a real family. -/
theorem attention_eq_coe (x : N → D → ℝ) (r e wq wk wv : D → D → ℝ) (aq ak av : D → ℝ) (s : ℝ) (n : N) (c : D) :
    fO (c2 x) (c2 r) (c2 e) (c2 wq) (c2 wk) (c2 wv) (c1 aq) (c1 ak) (c1 av) (s : EReal) n c
      = gO (c2 x) (c2 r) (c2 e) (c2 wq) (c2 wk) (c2 wv) (c1 aq) (c1 ak) (c1 av) (s : EReal) n c := by
  obtain ⟨m, hm⟩ := fold_max_real (fun j => rS x r e wq wk aq ak s n j) Finset.univ ⟨n, Finset.mem_univ n⟩
  have hfM : fM (c2 x) (c2 r) (c2 e) (c2 wq) (c2 wk) (c1 aq) (c1 ak) (s : EReal) n = (m : EReal) := by
    simp only [fM, fS_coe]
    exact hm
  have hgM : gM (c2 x) (c2 r) (c2 e) (c2 wq) (c2 wk) (c1 aq) (c1 ak) (s : EReal) n = (m : EReal) := by
    simp only [gM, gS_coe]
    exact hm
  have hfP : ∀ j, fP (c2 x) (c2 r) (c2 e) (c2 wq) (c2 wk) (c1 aq) (c1 ak) (s : EReal) n j
      = ((Real.exp (rS x r e wq wk aq ak s n j - m) : ℝ) : EReal) := fun j => by
    rw [fP, fS_coe, hfM, ← EReal.coe_sub, Ideal.exp_coe]
  have hgP : ∀ j, gP (c2 x) (c2 r) (c2 e) (c2 wq) (c2 wk) (c1 aq) (c1 ak) (s : EReal) n j
      = ((Real.exp (rS x r e wq wk aq ak s n j - m) : ℝ) : EReal) := fun j => by
    rw [gP, gS_coe, hgM, ← EReal.coe_sub, Ideal.exp_coe]
  simp only [fO, gO, hfP, hgP, fV_coe]
  exact div_sum_eq (fun j => Real.exp (rS x r e wq wk aq ak s n j - m)) (fun j => rV x wv av j c)
    (fun j => Real.exp_pos _) n

/-! ## The two arrangements agree at real entries -/

/-- At real entries and a real scale the folded arrangement and the two-step arrangement give the same output, entry by entry. -/
theorem attention_eq (hX : Real2 X) (hR : Real2 R) (hE : Real2 E) (hWq : Real2 Wq) (hWk : Real2 Wk) (hWv : Real2 Wv)
    (hbq : Real1 bq) (hbk : Real1 bk) (hbv : Real1 bv) (hσ : ∃ r : ℝ, σ = (r : EReal)) (n : N) (c : D) :
    fO X R E Wq Wk Wv bq bk bv σ n c = gO X R E Wq Wk Wv bq bk bv σ n c := by
  obtain ⟨x, rfl⟩ := hX.exists_coe
  obtain ⟨r, rfl⟩ := hR.exists_coe
  obtain ⟨e, rfl⟩ := hE.exists_coe
  obtain ⟨wq, rfl⟩ := hWq.exists_coe
  obtain ⟨wk, rfl⟩ := hWk.exists_coe
  obtain ⟨wv, rfl⟩ := hWv.exists_coe
  obtain ⟨aq, rfl⟩ := hbq.exists_coe
  obtain ⟨ak, rfl⟩ := hbk.exists_coe
  obtain ⟨av, rfl⟩ := hbv.exists_coe
  obtain ⟨s, rfl⟩ := hσ
  exact attention_eq_coe x r e wq wk wv aq ak av s n c

end Cert.LibAttention
-- ==== Proof.Spec.lean ====
import Idealize.ShloMosaic.Lib.ValueIdx
import Idealize.ShloMosaic.PureOps.Ideal.Laws
import proofs.«130108_j65481071401183_2_alg».proof.Proof.LibAttention

/-! # The result as one function of the argument arrays

The eight argument arrays are read as functions of their coordinates: the token rows `x` (16384 × 64), the parameter matrix
`p` (64 × 128) whose left 64 columns are the first mixing matrix and whose right 64 columns the second, three 64 × 64 weight
matrices and three biases of 64 entries. The scale is the single-precision word of one eighth (the reciprocal square root of
the feature count 64). The result array, 16384 × 64, is stated twice, entry (n, c) by entry: in the folded arrangement the
kernel computes and in the two-step arrangement the reference computes. -/

noncomputable section

namespace Cert.Attn

open Idealize.ShloMosaic Idealize.ShloMosaic.ValueIdx

/-- A two-axis array as a function of its two coordinates. -/
def mat {a b : ℕ} (x : (⟨2, ![a, b]⟩ : Shape).Idx → EReal) (i : Fin a) (j : Fin b) : EReal := x (ix2 i j)
/-- A one-axis array as a function of its coordinate. -/
def vec {a : ℕ} (x : (⟨1, ![a]⟩ : Shape).Idx → EReal) (i : Fin a) : EReal := x (ix1 i)
/-- A function of two coordinates as a two-axis array. -/
def arr2 {a b : ℕ} (f : Fin a → Fin b → EReal) : (⟨2, ![a, b]⟩ : Shape).Idx → EReal :=
  fun i => f ⟨(i 0).val, idx2_lt0 i⟩ ⟨(i 1).val, idx2_lt1 i⟩

theorem arr2_ix2 {a b : ℕ} (f : Fin a → Fin b → EReal) (i : Fin a) (j : Fin b) : arr2 f (ix2 i j) = f i j := rfl
theorem mat_apply {a b : ℕ} (x : (⟨2, ![a, b]⟩ : Shape).Idx → EReal) (i : Fin a) (j : Fin b) : mat x i j = x (ix2 i j) := rfl
theorem vec_apply {a : ℕ} (x : (⟨1, ![a]⟩ : Shape).Idx → EReal) (i : Fin a) : vec x i = x (ix1 i) := rfl

/-- The left 64 columns of a 64 × 128 array. -/
def lo (p : (⟨2, ![64, 128]⟩ : Shape).Idx → EReal) (b a : Fin 64) : EReal := p (ix2 b (⟨a.val, by omega⟩ : Fin 128))
/-- The right 64 columns of a 64 × 128 array. -/
def hi (p : (⟨2, ![64, 128]⟩ : Shape).Idx → EReal) (b a : Fin 64) : EReal := p (ix2 b (⟨64 + a.val, by omega⟩ : Fin 128))

/-- The scale: the single-precision word of 0.125. -/
def scale : EReal := Ideal.ofBits .f32 0x3E000000#32

section
variable (x : (⟨2, ![16384, 64]⟩ : Shape).Idx → EReal) (p : (⟨2, ![64, 128]⟩ : Shape).Idx → EReal)
  (wq : (⟨2, ![64, 64]⟩ : Shape).Idx → EReal) (bq : (⟨1, ![64]⟩ : Shape).Idx → EReal)
  (wk : (⟨2, ![64, 64]⟩ : Shape).Idx → EReal) (bk : (⟨1, ![64]⟩ : Shape).Idx → EReal)
  (wv : (⟨2, ![64, 64]⟩ : Shape).Idx → EReal) (bv : (⟨1, ![64]⟩ : Shape).Idx → EReal)

/-- The result in the folded arrangement. -/
def foldedOut : (⟨2, ![16384, 64]⟩ : Shape).Idx → EReal :=
  arr2 (LibAttention.fO (mat x) (lo p) (hi p) (mat wq) (mat wk) (mat wv) (vec bq) (vec bk) (vec bv) scale)

/-- The result in the two-step arrangement. -/
def twoStepOut : (⟨2, ![16384, 64]⟩ : Shape).Idx → EReal :=
  arr2 (LibAttention.gO (mat x) (lo p) (hi p) (mat wq) (mat wk) (mat wv) (vec bq) (vec bk) (vec bv) scale)

end

end Cert.Attn

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.Payload.lean ====
import proofs.«130108_j65481071401183_2_alg».proof.Proof.Gen.KernelIdeal.Skeleton
import proofs.«130108_j65481071401183_2_alg».proof.Proof.Dots
import proofs.«130108_j65481071401183_2_alg».proof.Proof.Spec
import proofs.«130108_j65481071401183_2_alg».proof.Proof.LibKeepdims
import Idealize.ShloMosaic.Lib.ValueLayout

/-! # What the two kernel bodies store, entry by entry

The projection body stores three blocks of 2048 token rows. With `x` the block of token rows, `w` a 64 × 64 matrix and `b` a
one-row bias, each stored entry (p, q) is `∑ₖ x (p, k) · w (q, k) + b (0, q)` — the matrix enters transposed —, the queries'
block multiplied by the scale besides; the values' block is then narrowed to a shorter float format, which changes nothing
on the extended reals.

The attention body stores one block of 256 rows. With `s (p, j) = ∑ₖ q (p, k) · key (j, k)` the scores of query row `p`
against all 16384 keys, `M p` their maximum over `j` from the bottom element, and `e (p, j) = exp (s (p, j) − M p)`, the stored
entry (p, c) is `(∑ⱼ e (p, j) · val (j, c)) / (∑ⱼ e (p, j))`. -/

noncomputable section

namespace Cert.KernelIdeal.Pay

open Cert.KernelIdeal Cert.KernelIdeal.Gen Idealize.ShloMosaic Idealize.ShloMosaic.ValueIdx Cert.Attn Cert.Gcn

/-! ## Row reductions of a 256 × 16384 block -/

/-- The inserted index of a reduction along the second axis of a 256 × 16384 array is (p, j). -/
theorem lift_row (h : S256x16384.Reduces [1] S256) (p : Fin 256) (j : Fin 16384) :
    h.lift (ix1 p) j = ix2 p j :=
  funext fun a => Fin.ext (by match a with | ⟨0, _⟩ => rfl | ⟨1, _⟩ => rfl)

/-- The row maximum from the bottom element. -/
theorem rowMax_apply (s : FVec Ideal S256x16384 .f32) (h : S256x16384.Reduces [1] S256) (hφ : FKind.Formats .f32)
    (hacc : (0xFF800000#32 : BitVec 32) = 0xFF800000#32) (p : Fin 256) :
    multiReduction .maximumf [1] S256 s 0xFF800000#32 h hφ hacc (ix1 p)
      = (Finset.univ : Finset (Fin 16384)).fold max ⊥ (fun j => s (ix2 p j)) := by
  refine (Ideal.multiReduction_maximumf_single s 0xFF800000#32 h hφ hacc (ix1 p)).trans ?_
  show (Finset.univ : Finset (Fin 16384)).fold max (Ideal.ofBits .f32 0xFF800000#32) (s ∘ h.lift (ix1 p)) = _
  rw [ofBits_negInf_f32]
  exact Finset.fold_congr fun j _ => congrArg s (lift_row h p j)

/-- The row sum. -/
theorem rowSum_apply (s : FVec Ideal S256x16384 .f32) (h : S256x16384.Reduces [1] S256) (hφ : FKind.Formats .f32)
    (hacc : (0x00000000#32 : BitVec 32) = 0x00000000#32) (p : Fin 256) :
    multiReduction .add [1] S256 s 0x00000000#32 h hφ hacc (ix1 p) = ∑ j : Fin 16384, s (ix2 p j) := by
  refine (Ideal.multiReduction_add_single s 0x00000000#32 h hφ hacc (ix1 p)).trans ?_
  exact Finset.sum_congr rfl fun j _ => congrArg s (lift_row h p j)

/-! ## The projection body -/

/-- A projected entry before the bias' broadcast is resolved: rows of `x` against rows of `w`, plus the bias row. -/
def proj (x : FVec Ideal S2048x64 .f32) (w : FVec Ideal S64x64 .f32) (b : FVec Ideal S1x64 .f32) (p : Fin 2048) (q : Fin 64) : EReal :=
  (∑ k : Fin 64, x (ix2 p k) * w (ix2 q k)) + b (ix2 (0 : Fin 1) q)

/-- The matrix product with the transposed matrix plus the broadcast bias, at an entry. -/
theorem projTerm_apply (x : FVec Ideal S2048x64 .f32) (w : FVec Ideal S64x64 .f32) (b : FVec Ideal S1x64 .f32) (p : Fin 2048) (q : Fin 64) :
    addf (matmul dot_S2048x64_S64x64_S2048x64_1_0_0_1_n_n none x (transpose S64x64 [1, 0] w transposes_S64x64_p1_0_S64x64)
        (constant S2048x64 .f32 0x00000000#32)) (broadcastTo S2048x64 b broadcasts_S1x64_S2048x64) (ix2 p q) = proj x w b p q := by
  rw [addf_apply, Dots.proj_apply, broadcastTo_1b_ab_apply]
  unfold proj
  refine congrArg (· + b (ix2 (0 : Fin 1) q)) (Finset.sum_congr rfl fun k _ => ?_)
  rw [transpose_ix2_apply]

/-- The keys' stored block. -/
theorem payK_apply (v0 : Vec Ideal S2048x64 .f32) (v3 : Vec Ideal S64x64 .f32) (v8 : Vec Ideal S1x64 .f32) (p : Fin 2048) (q : Fin 64) :
    k0_pay1 v0 v3 v8 (ix2 p q) = proj v0 v3 v8 p q := by
  unfold k0_pay1
  simp only [shapeCast_self]
  exact projTerm_apply v0 v3 v8 p q

/-- The queries' stored block: the projection times the scale. -/
theorem payQ_apply (v0 : Vec Ideal S2048x64 .f32) (v1 : Vec Ideal S64x64 .f32) (v6 : Vec Ideal S1x64 .f32) (p : Fin 2048) (q : Fin 64) :
    k0_pay2 v0 v1 v6 (ix2 p q) = proj v0 v1 v6 p q * scale := by
  unfold k0_pay2
  simp only [shapeCast_self]
  rw [mulf_apply, projTerm_apply]
  rfl

/-- The values' stored block: narrowing the float format is the identity. -/
theorem payV_apply (v0 : Vec Ideal S2048x64 .f32) (v5 : Vec Ideal S64x64 .f32) (v10 : Vec Ideal S1x64 .f32) (p : Fin 2048) (q : Fin 64) :
    k0_pay3 v0 v5 v10 (ix2 p q) = proj v0 v5 v10 p q := by
  unfold k0_pay3
  simp only [shapeCast_self]
  rw [truncf_apply]
  exact projTerm_apply v0 v5 v10 p q

/-! ## The attention body -/

/-- The score of query row `p` against key row `j`. -/
def score (q : FVec Ideal S256x64 .f32) (key : FVec Ideal S16384x64 .f32) (p : Fin 256) (j : Fin 16384) : EReal :=
  ∑ k : Fin 64, q (ix2 p k) * key (ix2 j k)

/-- The unnormalized weight: the exponential of the score less the row's maximum. -/
def weight (q : FVec Ideal S256x64 .f32) (key : FVec Ideal S16384x64 .f32) (p : Fin 256) (j : Fin 16384) : EReal :=
  Ideal.exp (score q key p j - (Finset.univ : Finset (Fin 16384)).fold max ⊥ (fun j' => score q key p j'))

/-- The block of exponentials, as the body computes it from the scores. -/
theorem weights_apply (q : FVec Ideal S256x64 .f32) (key : FVec Ideal S16384x64 .f32) (hφ : FKind.Formats .f32)
    (hacc : (0xFF800000#32 : BitVec 32) = 0xFF800000#32) (p : Fin 256) (j : Fin 16384) :
    exp (subf (matmul dot_S256x64_S16384x64_S256x16384_1_1_0_0_n_n none q key (constant S256x16384 .f32 0x00000000#32))
      (broadcastTo S256x16384 (shapeCast S256x1 (multiReduction .maximumf [1] S256
        (matmul dot_S256x64_S16384x64_S256x16384_1_1_0_0_n_n none q key (constant S256x16384 .f32 0x00000000#32))
        0xFF800000#32 reduces_S256x16384_S256 hφ hacc) shapeCasts_S256_S256x1) broadcasts_S256x1_S256x16384)) (ix2 p j)
      = weight q key p j := by
  show Ideal.exp (_ - _) = _
  rw [Dots.scores_apply, broadcastTo_a1_ab_apply, shapeCast_a_a1_apply, rowMax_apply]
  unfold weight score
  refine congrArg (fun z => Ideal.exp (_ - z)) (Finset.fold_congr fun j' _ => ?_)
  exact Dots.scores_apply q key p j'

/-- The attention body's stored block. -/
theorem payO_apply (v0 : Vec Ideal S256x64 .f32) (v2 : Vec Ideal S16384x64 .f32) (v4 : Vec Ideal S16384x64 .bf16) (p : Fin 256) (c : Fin 64) :
    k1_pay1 v0 v2 v4 (ix2 p c) = Ideal.div (∑ j : Fin 16384, weight v0 v2 p j * v4 (ix2 j c)) (∑ j : Fin 16384, weight v0 v2 p j) := by
  unfold k1_pay1
  simp only [shapeCast_self]
  rw [divf_apply, Dots.mix_apply, broadcastTo_a1_ab_apply, shapeCast_a_a1_apply, rowSum_apply]
  refine congrArg₂ Ideal.div (Finset.sum_congr rfl fun j _ => ?_) (Finset.sum_congr rfl fun j _ => ?_)
  · rw [truncf_apply, weights_apply]
  · exact weights_apply v0 v2 _ _ p j

end Cert.KernelIdeal.Pay

end
-- ==== Proof.ProjRegion.lean ====
import proofs.«130108_j65481071401183_2_alg».proof.Proof.Gen.KernelIdeal.Frame
import proofs.«130108_j65481071401183_2_alg».proof.Proof.Payload
import Idealize.ShloMosaic.Lib.Pipeline.Value

/-! # The projection region: its three output arrays as whole-array functions

The projection region runs over 8 grid points; point `t` reads rows `2048 t … 2048 t + 2047` of the token array and the whole
of each matrix and bias row, and writes rows `2048 t …` of the queries, keys and values. So each output array, after the
region, is one function of the arrays the region found: entry (n, c) is `∑ₖ x (n, k) · w (c, k) + b (0, c)`, for the queries
times the scale. The blocks of the 8 points tile each output array: row `r` is in the block of point `r / 2048`. -/

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The whole-array functions -/

/-- A projection with its bias: entry (n, c) is `∑ₖ x (n, k) · w (c, k) + b (0, c)`. -/
def projArr (x : S16384x64.Idx → EReal) (w : S64x64.Idx → EReal) (b : S1x64.Idx → EReal) : S16384x64.Idx → EReal :=
  arr2 fun (n : Fin 16384) (c : Fin 64) => (∑ k : Fin 64, x (ix2 n k) * w (ix2 c k)) + b (ix2 (0 : Fin 1) c)

/-- The scaled projection of the queries. -/
def projScaledArr (x : S16384x64.Idx → EReal) (w : S64x64.Idx → EReal) (b : S1x64.Idx → EReal) : S16384x64.Idx → EReal :=
  arr2 fun (n : Fin 16384) (c : Fin 64) => ((∑ k : Fin 64, x (ix2 n k) * w (ix2 c k)) + b (ix2 (0 : Fin 1) c)) * scale

/-! ## The printed index maps, decided over the 8 points -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

/-! ## Input blocks read at an entry -/

/-- Entry (p, a) of the block at point `t` is row `2048 t + p` of the array. -/
theorem blk0_0_apply (c : Dev nD) (t : Fin cfg0.N) (p : Fin 2048) (a : Fin 64) (h : 2048 * t.val + p.val < 16384) :
    (iblk0 V c 0 t : Vec Ideal S2048x64 .f32) (ix2 p a) = (V c main_arg0 : S16384x64.Idx → EReal) (ix2 (⟨2048 * t.val + p.val, h⟩ : Fin 16384) a) := by
  unfold iblk0
  rw [View.read_apply]
  refine congrArg (V c main_arg0 : S16384x64.Idx → EReal) ?_
  obtain ⟨e0, e1⟩ := idx0_0 t
  funext ax; apply Fin.ext
  match ax with
  | ⟨0, _⟩ => show win0_0.index t (0 : Fin 2) * 2048 + 1 * p.val = 2048 * t.val + p.val; omega
  | ⟨1, _⟩ => show win0_0.index t (1 : Fin 2) * 64 + 1 * a.val = a.val; omega

/-- This window's block is its whole array at every point. -/
theorem blk0_1_apply (c : Dev nD) (t : Fin cfg0.N) (p : Fin 64) (a : Fin 64) :
    (iblk0 V c 1 t : Vec Ideal S64x64 .f32) (ix2 p a) = (V c main_v2 : S64x64.Idx → EReal) (ix2 p a) := by
  unfold iblk0
  rw [View.read_apply]
  refine congrArg (V c main_v2 : S64x64.Idx → EReal) ?_
  obtain ⟨e0, e1⟩ := idx0_1 t
  funext ax; apply Fin.ext
  match ax with
  | ⟨0, _⟩ => show win0_1.index t (0 : Fin 2) * 64 + 1 * p.val = p.val; omega
  | ⟨1, _⟩ => show win0_1.index t (1 : Fin 2) * 64 + 1 * a.val = a.val; omega

/-- This window's block is its whole array at every point. -/
theorem blk0_2_apply (c : Dev nD) (t : Fin cfg0.N) (p : Fin 1) (a : Fin 64) :
    (iblk0 V c 2 t : Vec Ideal S1x64 .f32) (ix2 p a) = (V c main_v4 : S1x64.Idx → EReal) (ix2 p a) := by
  unfold iblk0
  rw [View.read_apply]
  refine congrArg (V c main_v4 : S1x64.Idx → EReal) ?_
  obtain ⟨e0, e1⟩ := idx0_2 t
  funext ax; apply Fin.ext
  match ax with
  | ⟨0, _⟩ => show win0_2.index t (0 : Fin 2) * 1 + 1 * p.val = p.val; omega
  | ⟨1, _⟩ => show win0_2.index t (1 : Fin 2) * 64 + 1 * a.val = a.val; omega

/-- This window's block is its whole array at every point. -/
theorem blk0_3_apply (c : Dev nD) (t : Fin cfg0.N) (p : Fin 64) (a : Fin 64) :
    (iblk0 V c 3 t : Vec Ideal S64x64 .f32) (ix2 p a) = (V c main_v3 : S64x64.Idx → EReal) (ix2 p a) := by
  unfold iblk0
  rw [View.read_apply]
  refine congrArg (V c main_v3 : S64x64.Idx → EReal) ?_
  obtain ⟨e0, e1⟩ := idx0_3 t
  funext ax; apply Fin.ext
  match ax with
  | ⟨0, _⟩ => show win0_3.index t (0 : Fin 2) * 64 + 1 * p.val = p.val; omega
  | ⟨1, _⟩ => show win0_3.index t (1 : Fin 2) * 64 + 1 * a.val = a.val; omega

/-- This window's block is its whole array at every point. -/
theorem blk0_4_apply (c : Dev nD) (t : Fin cfg0.N) (p : Fin 1) (a : Fin 64) :
    (iblk0 V c 4 t : Vec Ideal S1x64 .f32) (ix2 p a) = (V c main_v5 : S1x64.Idx → EReal) (ix2 p a) := by
  unfold iblk0
  rw [View.read_apply]
  refine congrArg (V c main_v5 : S1x64.Idx → EReal) ?_
  obtain ⟨e0, e1⟩ := idx0_4 t
  funext ax; apply Fin.ext
  match ax with
  | ⟨0, _⟩ => show win0_4.index t (0 : Fin 2) * 1 + 1 * p.val = p.val; omega
  | ⟨1, _⟩ => show win0_4.index t (1 : Fin 2) * 64 + 1 * a.val = a.val; omega

/-- This window's block is its whole array at every point. -/
theorem blk0_5_apply (c : Dev nD) (t : Fin cfg0.N) (p : Fin 64) (a : Fin 64) :
    (iblk0 V c 5 t : Vec Ideal S64x64 .f32) (ix2 p a) = (V c main_arg6 : S64x64.Idx → EReal) (ix2 p a) := by
  unfold iblk0
  rw [View.read_apply]
  refine congrArg (V c main_arg6 : S64x64.Idx → EReal) ?_
  obtain ⟨e0, e1⟩ := idx0_5 t
  funext ax; apply Fin.ext
  match ax with
  | ⟨0, _⟩ => show win0_5.index t (0 : Fin 2) * 64 + 1 * p.val = p.val; omega
  | ⟨1, _⟩ => show win0_5.index t (1 : Fin 2) * 64 + 1 * a.val = a.val; omega

/-- This window's block is its whole array at every point. -/
theorem blk0_6_apply (c : Dev nD) (t : Fin cfg0.N) (p : Fin 1) (a : Fin 64) :
    (iblk0 V c 6 t : Vec Ideal S1x64 .f32) (ix2 p a) = (V c main_v6 : S1x64.Idx → EReal) (ix2 p a) := by
  unfold iblk0
  rw [View.read_apply]
  refine congrArg (V c main_v6 : S1x64.Idx → EReal) ?_
  obtain ⟨e0, e1⟩ := idx0_6 t
  funext ax; apply Fin.ext
  match ax with
  | ⟨0, _⟩ => show win0_6.index t (0 : Fin 2) * 1 + 1 * p.val = p.val; omega
  | ⟨1, _⟩ => show win0_6.index t (1 : Fin 2) * 64 + 1 * a.val = a.val; omega

/-! ## The output windows -/

/-- Entry (p, q) of output block `t` sits at row `2048 t + p` of its array. -/
theorem emb0_7 (t : Fin cfg0.N) (p : Fin 2048) (q : Fin 64) (h : 2048 * t.val + p.val < 16384) :
    ((cfg0.win 7).blk t).view.emb (ix2 p q) = (ix2 (⟨2048 * t.val + p.val, h⟩ : Fin 16384) q : S16384x64.Idx) := by
  obtain ⟨e0, e1⟩ := idx0_7 t
  funext ax; apply Fin.ext
  match ax with
  | ⟨0, _⟩ => show win0_7.index t (0 : Fin 2) * 2048 + 1 * p.val = 2048 * t.val + p.val; omega
  | ⟨1, _⟩ => show win0_7.index t (1 : Fin 2) * 64 + 1 * q.val = q.val; omega

/-- An index of the array is in point `t`'s block iff its row is among the block's 2048 rows. -/
theorem mem_blk0_7 (t : Fin cfg0.N) (i : S16384x64.Idx) :
    i ∈ ((cfg0.win 7).blk t).view.set ↔ ∀ a : Fin 2, win0_7.index t a * S2048x64.size a ≤ (i a).val ∧ (i a).val < win0_7.index t a * S2048x64.size a + S2048x64.size a := by
  show i ∈ ((View.whole main_v7_0).slice (win0_7.rect t)).set ↔ _
  rw [View.set_slice_whole, Rect.mem_set_unit]
  exact Iff.rfl

/-- Every index of the array is in the block of the point `row / 2048`. -/
theorem cover0_7w (i : S16384x64.Idx) : ∃ t : Fin cfg0.N, (cfg0.win 7).flush t = true ∧ i ∈ ((cfg0.win 7).blk t).view.set := by
  have hi0 : (i 0).val < 16384 := (i 0).isLt
  have hi1 : (i 1).val < 64 := (i 1).isLt
  have hN : cfg0.N = 8 := N_0
  let t : Fin cfg0.N := ⟨(i 0).val / 2048, by rw [hN]; omega⟩
  obtain ⟨e0, e1⟩ := idx0_7 t
  have et : t.val = (i 0).val / 2048 := rfl
  refine ⟨t, flush0_7 t, ?_⟩
  rw [mem_blk0_7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 64 ≤ (i 1).val ∧ (i 1).val < win0_7.index t (1 : Fin 2) * 64 + 64; omega

/-- Entry (p, q) of output block `t` sits at row `2048 t + p` of its array. -/
theorem emb0_8 (t : Fin cfg0.N) (p : Fin 2048) (q : Fin 64) (h : 2048 * t.val + p.val < 16384) :
    ((cfg0.win 8).blk t).view.emb (ix2 p q) = (ix2 (⟨2048 * t.val + p.val, h⟩ : Fin 16384) q : S16384x64.Idx) := by
  obtain ⟨e0, e1⟩ := idx0_8 t
  funext ax; apply Fin.ext
  match ax with
  | ⟨0, _⟩ => show win0_8.index t (0 : Fin 2) * 2048 + 1 * p.val = 2048 * t.val + p.val; omega
  | ⟨1, _⟩ => show win0_8.index t (1 : Fin 2) * 64 + 1 * q.val = q.val; omega

/-- An index of the array is in point `t`'s block iff its row is among the block's 2048 rows. -/
theorem mem_blk0_8 (t : Fin cfg0.N) (i : S16384x64.Idx) :
    i ∈ ((cfg0.win 8).blk t).view.set ↔ ∀ a : Fin 2, win0_8.index t a * S2048x64.size a ≤ (i a).val ∧ (i a).val < win0_8.index t a * S2048x64.size a + S2048x64.size a := by
  show i ∈ ((View.whole main_v7_1).slice (win0_8.rect t)).set ↔ _
  rw [View.set_slice_whole, Rect.mem_set_unit]
  exact Iff.rfl

/-- Every index of the array is in the block of the point `row / 2048`. -/
theorem cover0_8w (i : S16384x64.Idx) : ∃ t : Fin cfg0.N, (cfg0.win 8).flush t = true ∧ i ∈ ((cfg0.win 8).blk t).view.set := by
  have hi0 : (i 0).val < 16384 := (i 0).isLt
  have hi1 : (i 1).val < 64 := (i 1).isLt
  have hN : cfg0.N = 8 := N_0
  let t : Fin cfg0.N := ⟨(i 0).val / 2048, by rw [hN]; omega⟩
  obtain ⟨e0, e1⟩ := idx0_8 t
  have et : t.val = (i 0).val / 2048 := rfl
  refine ⟨t, flush0_8 t, ?_⟩
  rw [mem_blk0_8]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 64 ≤ (i 1).val ∧ (i 1).val < win0_8.index t (1 : Fin 2) * 64 + 64; omega

/-- Entry (p, q) of output block `t` sits at row `2048 t + p` of its array. -/
theorem emb0_9 (t : Fin cfg0.N) (p : Fin 2048) (q : Fin 64) (h : 2048 * t.val + p.val < 16384) :
    ((cfg0.win 9).blk t).view.emb (ix2 p q) = (ix2 (⟨2048 * t.val + p.val, h⟩ : Fin 16384) q : S16384x64.Idx) := by
  obtain ⟨e0, e1⟩ := idx0_9 t
  funext ax; apply Fin.ext
  match ax with
  | ⟨0, _⟩ => show win0_9.index t (0 : Fin 2) * 2048 + 1 * p.val = 2048 * t.val + p.val; omega
  | ⟨1, _⟩ => show win0_9.index t (1 : Fin 2) * 64 + 1 * q.val = q.val; omega

/-- An index of the array is in point `t`'s block iff its row is among the block's 2048 rows. -/
theorem mem_blk0_9 (t : Fin cfg0.N) (i : S16384x64.Idx) :
    i ∈ ((cfg0.win 9).blk t).view.set ↔ ∀ a : Fin 2, win0_9.index t a * S2048x64.size a ≤ (i a).val ∧ (i a).val < win0_9.index t a * S2048x64.size a + S2048x64.size a := by
  show i ∈ ((View.whole main_v7_2).slice (win0_9.rect t)).set ↔ _
  rw [View.set_slice_whole, Rect.mem_set_unit]
  exact Iff.rfl

/-- Every index of the array is in the block of the point `row / 2048`. -/
theorem cover0_9w (i : S16384x64.Idx) : ∃ t : Fin cfg0.N, (cfg0.win 9).flush t = true ∧ i ∈ ((cfg0.win 9).blk t).view.set := by
  have hi0 : (i 0).val < 16384 := (i 0).isLt
  have hi1 : (i 1).val < 64 := (i 1).isLt
  have hN : cfg0.N = 8 := N_0
  let t : Fin cfg0.N := ⟨(i 0).val / 2048, by rw [hN]; omega⟩
  obtain ⟨e0, e1⟩ := idx0_9 t
  have et : t.val = (i 0).val / 2048 := rfl
  refine ⟨t, flush0_9 t, ?_⟩
  rw [mem_blk0_9]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 64 ≤ (i 1).val ∧ (i 1).val < win0_9.index t (1 : Fin 2) * 64 + 64; omega

/-- What point `t` writes back of the queries is block `t` of their whole-array function. -/
theorem flushed0_7 (c : Dev nD) (t : Fin cfg0.N) :
    (dat0 V c).flushed 7 t = ((cfg0.win 7).blk t).view.read (Elt Ideal) (projScaledArr (V c main_arg0) (V c main_v2) (V c main_v4)) := by
  show (cfg0.win 7).cut (grid0.coords t) ((dat0 V c).after 7 t) = _
  rw [after0_7]
  unfold out0_7
  rw [View.canon_unit_zero hz]
  simp only [View.ld_unit_zero (S := S2048x64) hz, View.ld_unit_zero (S := S64x64) hz, View.ld_unit_zero (S := S1x64) hz]
  funext j
  obtain ⟨p, q, rfl⟩ : ∃ (p : Fin 2048) (q : Fin 64), j = ix2 p q := ⟨j 0, j 1, eq_ix2 j⟩
  have hN : cfg0.N = 8 := N_0
  have ht : t.val < 8 := by have := t.isLt; omega
  have hp : p.val < 2048 := p.isLt
  have hb : 2048 * t.val + p.val < 16384 := by omega
  show k0_pay2 (iblk0 V c 0 t) (iblk0 V c 1 t) (iblk0 V c 2 t) (ix2 p q)
    = projScaledArr (V c main_arg0) (V c main_v2) (V c main_v4) (((cfg0.win 7).blk t).view.emb (ix2 p q))
  rw [emb0_7 t p q hb]
  refine (Pay.payQ_apply _ _ _ p q).trans ?_
  unfold projScaledArr Pay.proj
  rw [arr2_ix2, blk0_2_apply V c t (0 : Fin 1) q]
  refine congrArg (fun z => (z + _) * scale) (Finset.sum_congr rfl fun k _ => ?_)
  rw [blk0_0_apply V c t p k hb, blk0_1_apply V c t q k]

/-- The queries' array after the projection region. -/
theorem final0_7 (c : Dev nD) :
    (dat0 V c).arrAt 7 cfg0.N = projScaledArr (V c main_arg0) (V c main_v2) (V c main_v4) :=
  (dat0 V c).arrAt_eq_of_cover 7 _ (fun t _ => flushed0_7 V c t) cover0_7w

/-- What point `t` writes back of the keys is block `t` of their whole-array function. -/
theorem flushed0_8 (c : Dev nD) (t : Fin cfg0.N) :
    (dat0 V c).flushed 8 t = ((cfg0.win 8).blk t).view.read (Elt Ideal) (projArr (V c main_arg0) (V c main_v3) (V c main_v5)) := by
  show (cfg0.win 8).cut (grid0.coords t) ((dat0 V c).after 8 t) = _
  rw [after0_8]
  unfold out0_8
  rw [View.canon_unit_zero hz]
  simp only [View.ld_unit_zero (S := S2048x64) hz, View.ld_unit_zero (S := S64x64) hz, View.ld_unit_zero (S := S1x64) hz]
  funext j
  obtain ⟨p, q, rfl⟩ : ∃ (p : Fin 2048) (q : Fin 64), j = ix2 p q := ⟨j 0, j 1, eq_ix2 j⟩
  have hN : cfg0.N = 8 := N_0
  have ht : t.val < 8 := by have := t.isLt; omega
  have hp : p.val < 2048 := p.isLt
  have hb : 2048 * t.val + p.val < 16384 := by omega
  show k0_pay1 (iblk0 V c 0 t) (iblk0 V c 3 t) (iblk0 V c 4 t) (ix2 p q)
    = projArr (V c main_arg0) (V c main_v3) (V c main_v5) (((cfg0.win 8).blk t).view.emb (ix2 p q))
  rw [emb0_8 t p q hb]
  refine (Pay.payK_apply _ _ _ p q).trans ?_
  unfold projArr Pay.proj
  rw [arr2_ix2, blk0_4_apply V c t (0 : Fin 1) q]
  refine congrArg (fun z => z + _) (Finset.sum_congr rfl fun k _ => ?_)
  rw [blk0_0_apply V c t p k hb, blk0_3_apply V c t q k]

/-- The keys' array after the projection region. -/
theorem final0_8 (c : Dev nD) :
    (dat0 V c).arrAt 8 cfg0.N = projArr (V c main_arg0) (V c main_v3) (V c main_v5) :=
  (dat0 V c).arrAt_eq_of_cover 8 _ (fun t _ => flushed0_8 V c t) cover0_8w

/-- What point `t` writes back of the values is block `t` of their whole-array function. -/
theorem flushed0_9 (c : Dev nD) (t : Fin cfg0.N) :
    (dat0 V c).flushed 9 t = ((cfg0.win 9).blk t).view.read (Elt Ideal) (projArr (V c main_arg0) (V c main_arg6) (V c main_v6)) := by
  show (cfg0.win 9).cut (grid0.coords t) ((dat0 V c).after 9 t) = _
  rw [after0_9]
  unfold out0_9
  rw [View.canon_unit_zero hz]
  simp only [View.ld_unit_zero (S := S2048x64) hz, View.ld_unit_zero (S := S64x64) hz, View.ld_unit_zero (S := S1x64) hz]
  funext j
  obtain ⟨p, q, rfl⟩ : ∃ (p : Fin 2048) (q : Fin 64), j = ix2 p q := ⟨j 0, j 1, eq_ix2 j⟩
  have hN : cfg0.N = 8 := N_0
  have ht : t.val < 8 := by have := t.isLt; omega
  have hp : p.val < 2048 := p.isLt
  have hb : 2048 * t.val + p.val < 16384 := by omega
  show k0_pay3 (iblk0 V c 0 t) (iblk0 V c 5 t) (iblk0 V c 6 t) (ix2 p q)
    = projArr (V c main_arg0) (V c main_arg6) (V c main_v6) (((cfg0.win 9).blk t).view.emb (ix2 p q))
  rw [emb0_9 t p q hb]
  refine (Pay.payV_apply _ _ _ p q).trans ?_
  unfold projArr Pay.proj
  rw [arr2_ix2, blk0_6_apply V c t (0 : Fin 1) q]
  refine congrArg (fun z => z + _) (Finset.sum_congr rfl fun k _ => ?_)
  rw [blk0_0_apply V c t p k hb, blk0_5_apply V c t q k]

/-- The values' array after the projection region. -/
theorem final0_9 (c : Dev nD) :
    (dat0 V c).arrAt 9 cfg0.N = projArr (V c main_arg0) (V c main_arg6) (V c main_v6) :=
  (dat0 V c).arrAt_eq_of_cover 9 _ (fun t _ => flushed0_9 V c t) cover0_9w

end Cert.KernelIdeal.KVal

end
-- ==== Proof.AttnRegion.lean ====
import proofs.«130108_j65481071401183_2_alg».proof.Proof.Gen.KernelIdeal.Frame
import proofs.«130108_j65481071401183_2_alg».proof.Proof.Payload
import Idealize.ShloMosaic.Lib.Pipeline.Value

/-! # The attention region: its output array as a whole-array function

The attention region runs over 64 grid points; point `t` reads rows `256 t … 256 t + 255` of the queries and the whole of the
keys and of the values, and writes rows `256 t …` of the result. So the result array, after the region, is one function of the
three arrays the region found: with `s (n, j) = ∑ₖ q (n, k) · key (j, k)`, `M n` the maximum of row `n` of `s` from the bottom
element and `e (n, j) = exp (s (n, j) − M n)`, entry (n, c) is `(∑ⱼ e (n, j) · val (j, c)) / (∑ⱼ e (n, j))`. The blocks of the
64 points tile the result: row `r` is in the block of point `r / 256`. -/

set_option maxRecDepth 16384

noncomputable section

namespace Cert.KernelIdeal.KAttn

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The whole-array function -/

/-- The score of query row `n` against key row `j`. -/
def sco (q key : S16384x64.Idx → EReal) (n j : Fin 16384) : EReal := ∑ k : Fin 64, q (ix2 n k) * key (ix2 j k)

/-- The unnormalized weight: the exponential of the score less the row's maximum. -/
def wgt (q key : S16384x64.Idx → EReal) (n j : Fin 16384) : EReal :=
  Ideal.exp (sco q key n j - (Finset.univ : Finset (Fin 16384)).fold max ⊥ (fun j' => sco q key n j'))

/-- The attention output: the weighted sum of the values divided by the normalizer. -/
def attnArr (q key val : S16384x64.Idx → EReal) : S16384x64.Idx → EReal :=
  arr2 fun (n : Fin 16384) (c : Fin 64) =>
    Ideal.div (∑ j : Fin 16384, wgt q key n j * val (ix2 j c)) (∑ j : Fin 16384, wgt q key n j)

/-! ## The printed index maps, decided over the 64 points -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)

/-! ## Input blocks read at an entry -/

/-- Entry (p, a) of the queries' block at point `t` is row `256 t + p` of the array. -/
theorem blk1_0_apply (c : Dev nD) (t : Fin cfg1.N) (p : Fin 256) (a : Fin 64) (h : 256 * t.val + p.val < 16384) :
    (iblk1 V c 0 t : Vec Ideal S256x64 .f32) (ix2 p a) = (V c main_v7_0 : S16384x64.Idx → EReal) (ix2 (⟨256 * t.val + p.val, h⟩ : Fin 16384) a) := by
  unfold iblk1
  rw [View.read_apply]
  refine congrArg (V c main_v7_0 : S16384x64.Idx → EReal) ?_
  obtain ⟨e0, e1⟩ := idx1_0 t
  funext ax; apply Fin.ext
  match ax with
  | ⟨0, _⟩ => show win1_0.index t (0 : Fin 2) * 256 + 1 * p.val = 256 * t.val + p.val; omega
  | ⟨1, _⟩ => show win1_0.index t (1 : Fin 2) * 64 + 1 * a.val = a.val; omega

/-- This window's block is its whole array at every point. -/
theorem blk1_1_apply (c : Dev nD) (t : Fin cfg1.N) (j : Fin 16384) (a : Fin 64) :
    (iblk1 V c 1 t : Vec Ideal S16384x64 .f32) (ix2 j a) = (V c main_v7_1 : S16384x64.Idx → EReal) (ix2 j a) := by
  unfold iblk1
  rw [View.read_apply]
  refine congrArg (V c main_v7_1 : S16384x64.Idx → EReal) ?_
  obtain ⟨e0, e1⟩ := idx1_1 t
  funext ax; apply Fin.ext
  match ax with
  | ⟨0, _⟩ => show win1_1.index t (0 : Fin 2) * 16384 + 1 * j.val = j.val; omega
  | ⟨1, _⟩ => show win1_1.index t (1 : Fin 2) * 64 + 1 * a.val = a.val; omega

/-- This window's block is its whole array at every point. -/
theorem blk1_2_apply (c : Dev nD) (t : Fin cfg1.N) (j : Fin 16384) (a : Fin 64) :
    (iblk1 V c 2 t : Vec Ideal S16384x64 .bf16) (ix2 j a) = (V c main_v7_2 : S16384x64.Idx → EReal) (ix2 j a) := by
  unfold iblk1
  rw [View.read_apply]
  refine congrArg (V c main_v7_2 : S16384x64.Idx → EReal) ?_
  obtain ⟨e0, e1⟩ := idx1_2 t
  funext ax; apply Fin.ext
  match ax with
  | ⟨0, _⟩ => show win1_2.index t (0 : Fin 2) * 16384 + 1 * j.val = j.val; omega
  | ⟨1, _⟩ => show win1_2.index t (1 : Fin 2) * 64 + 1 * a.val = a.val; omega

/-- The score of a block row is the score of its array row. -/
theorem score_blk (c : Dev nD) (t : Fin cfg1.N) (p : Fin 256) (j : Fin 16384) (h : 256 * t.val + p.val < 16384) :
    Pay.score (iblk1 V c 0 t) (iblk1 V c 1 t) p j = sco (V c main_v7_0) (V c main_v7_1) (⟨256 * t.val + p.val, h⟩ : Fin 16384) j := by
  unfold Pay.score sco
  refine Finset.sum_congr rfl fun k _ => ?_
  rw [blk1_0_apply V c t p k h, blk1_1_apply V c t j k]

/-- The weight of a block row is the weight of its array row. -/
theorem weight_blk (c : Dev nD) (t : Fin cfg1.N) (p : Fin 256) (j : Fin 16384) (h : 256 * t.val + p.val < 16384) :
    Pay.weight (iblk1 V c 0 t) (iblk1 V c 1 t) p j = wgt (V c main_v7_0) (V c main_v7_1) (⟨256 * t.val + p.val, h⟩ : Fin 16384) j := by
  unfold Pay.weight wgt
  rw [score_blk V c t p j h]
  refine congrArg (fun z => Ideal.exp (_ - z)) (Finset.fold_congr fun j' _ => ?_)
  exact score_blk V c t p j' h

/-! ## The output window -/

/-- Entry (p, q) of output block `t` sits at row `256 t + p` of the result. -/
theorem emb1_3 (t : Fin cfg1.N) (p : Fin 256) (q : Fin 64) (h : 256 * t.val + p.val < 16384) :
    ((cfg1.win 3).blk t).view.emb (ix2 p q) = (ix2 (⟨256 * t.val + p.val, h⟩ : Fin 16384) q : S16384x64.Idx) := by
  obtain ⟨e0, e1⟩ := idx1_3 t
  funext ax; apply Fin.ext
  match ax with
  | ⟨0, _⟩ => show win1_3.index t (0 : Fin 2) * 256 + 1 * p.val = 256 * t.val + p.val; omega
  | ⟨1, _⟩ => show win1_3.index t (1 : Fin 2) * 64 + 1 * q.val = q.val; omega

/-- An index of the result is in point `t`'s block iff its row is among the block's 256 rows. -/
theorem mem_blk1_3 (t : Fin cfg1.N) (i : S16384x64.Idx) :
    i ∈ ((cfg1.win 3).blk t).view.set ↔ ∀ a : Fin 2, win1_3.index t a * S256x64.size a ≤ (i a).val ∧ (i a).val < win1_3.index t a * S256x64.size a + S256x64.size a := by
  show i ∈ ((View.whole main_v8).slice (win1_3.rect t)).set ↔ _
  rw [View.set_slice_whole, Rect.mem_set_unit]
  exact Iff.rfl

/-- Every index of the result is in the block of the point `row / 256`. -/
theorem cover1_3w (i : S16384x64.Idx) : ∃ t : Fin cfg1.N, (cfg1.win 3).flush t = true ∧ i ∈ ((cfg1.win 3).blk t).view.set := by
  have hi0 : (i 0).val < 16384 := (i 0).isLt
  have hi1 : (i 1).val < 64 := (i 1).isLt
  have hN : cfg1.N = 64 := N_1
  let t : Fin cfg1.N := ⟨(i 0).val / 256, by rw [hN]; omega⟩
  obtain ⟨e0, e1⟩ := idx1_3 t
  have et : t.val = (i 0).val / 256 := rfl
  refine ⟨t, flush1_3 t, ?_⟩
  rw [mem_blk1_3]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 64 ≤ (i 1).val ∧ (i 1).val < win1_3.index t (1 : Fin 2) * 64 + 64; omega

set_option maxRecDepth 200000 in
/-- What point `t` writes back of the result is block `t` of the whole-array function. -/
theorem flushed1_3 (c : Dev nD) (t : Fin cfg1.N) :
    (dat1 V c).flushed 3 t = ((cfg1.win 3).blk t).view.read (Elt Ideal) (attnArr (V c main_v7_0) (V c main_v7_1) (V c main_v7_2)) := by
  show (cfg1.win 3).cut (grid1.coords t) ((dat1 V c).after 3 t) = _
  rw [after1_3]
  unfold out1_3
  rw [View.canon_unit_zero hz]
  simp only [View.ld_unit_zero (S := S256x64) hz, View.ld_unit_zero (S := S16384x64) hz]
  funext j
  obtain ⟨p, q, rfl⟩ : ∃ (p : Fin 256) (q : Fin 64), j = ix2 p q := ⟨j 0, j 1, eq_ix2 j⟩
  have hN : cfg1.N = 64 := N_1
  have ht : t.val < 64 := by have := t.isLt; omega
  have hp : p.val < 256 := p.isLt
  have hb : 256 * t.val + p.val < 16384 := by omega
  show k1_pay1 (iblk1 V c 0 t) (iblk1 V c 1 t) (iblk1 V c 2 t) (ix2 p q)
    = attnArr (V c main_v7_0) (V c main_v7_1) (V c main_v7_2) (((cfg1.win 3).blk t).view.emb (ix2 p q))
  rw [emb1_3 t p q hb]
  refine (Pay.payO_apply _ _ _ p q).trans ?_
  unfold attnArr
  rw [arr2_ix2]
  refine congrArg₂ Ideal.div (Finset.sum_congr rfl fun j _ => ?_) (Finset.sum_congr rfl fun j _ => ?_)
  · rw [weight_blk V c t p j hb, blk1_2_apply V c t j q]
  · exact weight_blk V c t p j hb

/-- The result array after the attention region. -/
theorem final1_3 (c : Dev nD) :
    (dat1 V c).arrAt 3 cfg1.N = attnArr (V c main_v7_0) (V c main_v7_1) (V c main_v7_2) :=
  (dat1 V c).arrAt_eq_of_cover 3 _ (fun t _ => flushed1_3 V c t) cover1_3w

end Cert.KernelIdeal.KAttn

end
-- ==== Proof.KernelValue.lean ====
import proofs.«130108_j65481071401183_2_alg».proof.Proof.KernelRun
import proofs.«130108_j65481071401183_2_alg».proof.Proof.ProjRegion
import proofs.«130108_j65481071401183_2_alg».proof.Proof.AttnRegion
import Idealize.ShloMosaic.Lib.StableHlo.Run

/-! # The idealized kernel's result is the folded arrangement of the arguments

Before the two kernel regions the host multiplies each of the two weight matrices into its half of the parameter matrix
(`Wq · lo p`, `Wk · hi p`) and reshapes each bias to one row. The projection region then leaves the scaled queries, the keys and
the values, each one function of the token rows and those host results; the attention region leaves the result, one function
of the three. Composed and read entry by entry, the result is the folded arrangement of the eight argument arrays. -/

set_option maxRecDepth 16384

noncomputable section

namespace Cert.KernelIdeal.KOut

open Cert.KernelIdeal Cert.KernelIdeal.Gen Idealize.ShloMosaic Idealize.ShloMosaic.TcCoe Idealize.SL.Sem Idealize.ShloMosaic.StableHlo
open Idealize.ShloMosaic.ValueIdx Cert.Attn Cert.LibAttention
open Cert.KernelIdeal.KVal Cert.KernelIdeal.KAttn

/-! ## The host results read at an entry -/

/-- The left 64 columns sliced out of the parameter matrix. -/
theorem sliceLo_apply (p : FVec Ideal S64x128 .f32) (b a : Fin 64) :
    extractStridedSlice S64x64 ![0, 0] p slices_S64x128_S64x64_0_0 (ix2 b a) = lo p b a :=
  extractStridedSlice_apply ![0, 0] p slices_S64x128_S64x64_0_0 (ix2 b a) (ix2 b (⟨a.val, by omega⟩ : Fin 128)) (fun ax => match ax with
    | ⟨0, _⟩ => by show b.val = 0 + b.val; omega
    | ⟨1, _⟩ => by show a.val = 0 + a.val; omega)

/-- The right 64 columns sliced out of the parameter matrix. -/
theorem sliceHi_apply (p : FVec Ideal S64x128 .f32) (b a : Fin 64) :
    extractStridedSlice S64x64 ![0, 64] p slices_S64x128_S64x64_0_64 (ix2 b a) = hi p b a :=
  extractStridedSlice_apply ![0, 64] p slices_S64x128_S64x64_0_64 (ix2 b a) (ix2 b (⟨64 + a.val, by omega⟩ : Fin 128)) (fun ax => match ax with
    | ⟨0, _⟩ => by show b.val = 0 + b.val; omega
    | ⟨1, _⟩ => by show 64 + a.val = 64 + a.val; omega)

/-- A weight matrix times the left half of the parameter matrix. -/
abbrev foldLoArr (w : FVec Ideal S64x64 .f32) (p : FVec Ideal S64x128 .f32) : FVec Ideal S64x64 .f32 :=
  Host.dotGeneral (F := Ideal) dot_S64x64_S64x64_S64x64_1_0_0_1_n_n none w (extractStridedSlice S64x64 ![0, 0] p slices_S64x128_S64x64_0_0)
/-- A weight matrix times the right half of the parameter matrix. -/
abbrev foldHiArr (w : FVec Ideal S64x64 .f32) (p : FVec Ideal S64x128 .f32) : FVec Ideal S64x64 .f32 :=
  Host.dotGeneral (F := Ideal) dot_S64x64_S64x64_S64x64_1_0_0_1_n_n none w (extractStridedSlice S64x64 ![0, 64] p slices_S64x128_S64x64_0_64)
/-- A bias as one row. -/
abbrev rowArr (b : FVec Ideal S64 .f32) : FVec Ideal S1x64 .f32 := shapeCast S1x64 b shapeCasts_S64_S1x64

/-- A weight matrix folded into the left half of the parameter matrix, at an entry. -/
theorem foldLo_apply (w : FVec Ideal S64x64 .f32) (p : FVec Ideal S64x128 .f32) (c a : Fin 64) :
    foldLoArr w p (ix2 c a) = ∑ b : Fin 64, mat w c b * lo p b a := by
  unfold foldLoArr
  rw [Dots.fold_apply]
  exact Finset.sum_congr rfl fun b _ => by rw [sliceLo_apply]; rfl

/-- A weight matrix folded into the right half of the parameter matrix, at an entry. -/
theorem foldHi_apply (w : FVec Ideal S64x64 .f32) (p : FVec Ideal S64x128 .f32) (c a : Fin 64) :
    foldHiArr w p (ix2 c a) = ∑ b : Fin 64, mat w c b * hi p b a := by
  unfold foldHiArr
  rw [Dots.fold_apply]
  exact Finset.sum_congr rfl fun b _ => by rw [sliceHi_apply]; rfl

/-- A bias reshaped to one row, at an entry. -/
theorem biasRow_apply (b : FVec Ideal S64 .f32) (c : Fin 64) :
    rowArr b (ix2 (0 : Fin 1) c) = vec b c :=
  shapeCast_a_1a_apply b shapeCasts_S64_S1x64 (0 : Fin 1) c

/-! ## The three projections and the attention output, in the folded arrangement's terms -/

section Pure
variable (x : FVec Ideal S16384x64 .f32) (p : FVec Ideal S64x128 .f32) (wq : FVec Ideal S64x64 .f32) (bq : FVec Ideal S64 .f32)
  (wk : FVec Ideal S64x64 .f32) (bk : FVec Ideal S64 .f32) (wv : FVec Ideal S64x64 .f32) (bv : FVec Ideal S64 .f32)

/-- The queries' array. -/
abbrev qArr : S16384x64.Idx → EReal :=
  projScaledArr x (foldLoArr wq p) (rowArr bq)
/-- The keys' array. -/
abbrev kArr : S16384x64.Idx → EReal :=
  projArr x (foldHiArr wk p) (rowArr bk)
/-- The values' array. -/
abbrev vArr : S16384x64.Idx → EReal := projArr x wv (rowArr bv)

theorem qArr_apply (n : Fin 16384) (c : Fin 64) :
    qArr x p wq bq (ix2 n c) = fQ (mat x) (lo p) (mat wq) (vec bq) scale n c := by
  unfold qArr projScaledArr fQ
  rw [arr2_ix2, biasRow_apply]
  refine congrArg (fun z => (z + vec bq c) * scale) (Finset.sum_congr rfl fun a _ => ?_)
  rw [foldLo_apply]; rfl

theorem kArr_apply (n : Fin 16384) (c : Fin 64) :
    kArr x p wk bk (ix2 n c) = fK (mat x) (hi p) (mat wk) (vec bk) n c := by
  unfold kArr projArr fK
  rw [arr2_ix2, biasRow_apply]
  refine congrArg (fun z => z + vec bk c) (Finset.sum_congr rfl fun a _ => ?_)
  rw [foldHi_apply]; rfl

theorem vArr_apply (n : Fin 16384) (c : Fin 64) :
    vArr x wv bv (ix2 n c) = fV (mat x) (mat wv) (vec bv) n c := by
  unfold vArr projArr fV
  rw [arr2_ix2, biasRow_apply]
  rfl

theorem sco_eq (n j : Fin 16384) :
    sco (qArr x p wq bq) (kArr x p wk bk) n j = fS (mat x) (lo p) (hi p) (mat wq) (mat wk) (vec bq) (vec bk) scale n j := by
  unfold sco fS
  exact Finset.sum_congr rfl fun c _ => by rw [qArr_apply, kArr_apply]

theorem wgt_eq (n j : Fin 16384) :
    wgt (qArr x p wq bq) (kArr x p wk bk) n j = fP (mat x) (lo p) (hi p) (mat wq) (mat wk) (vec bq) (vec bk) scale n j := by
  unfold wgt fP fM
  rw [sco_eq]
  exact congrArg (fun z => Ideal.exp (_ - z)) (Finset.fold_congr fun j' _ => sco_eq x p wq bq wk bk n j')

/-- The attention output of the three projections is the folded arrangement. -/
theorem attn_eq_folded :
    attnArr (qArr x p wq bq) (kArr x p wk bk) (vArr x wv bv) = foldedOut x p wq bq wk bk wv bv := by
  funext i
  obtain ⟨n, c, rfl⟩ : ∃ (n : Fin 16384) (c : Fin 64), i = ix2 n c := ⟨i 0, i 1, eq_ix2 i⟩
  unfold attnArr foldedOut
  rw [arr2_ix2, arr2_ix2]
  unfold fO
  refine congrArg₂ Ideal.div (Finset.sum_congr rfl fun j _ => ?_) (Finset.sum_congr rfl fun j _ => wgt_eq x p wq bq wk bk n j)
  rw [wgt_eq, vArr_apply]

end Pure

/-! ## The boundary contents -/

variable (m : (ℓ : Loc nD τ sig) → Buf (Elt Ideal) ℓ) (ρ : Dev nD → PrngReg)

theorem V1_arg0 (c : Dev nD) : V1 m ρ c main_arg0 = (m ((c : Thread nD τ).loc main_arg0) : FVec Ideal S16384x64 .f32) := by
  show StableHlo.after hostOps0 (W0 m ρ c) (Proc.devRef .tc main_arg0) = _
  simp only [hostOps0]
  after_results
  all_goals rfl
theorem V1_arg6 (c : Dev nD) : V1 m ρ c main_arg6 = (m ((c : Thread nD τ).loc main_arg6) : FVec Ideal S64x64 .f32) := by
  show StableHlo.after hostOps0 (W0 m ρ c) (Proc.devRef .tc main_arg6) = _
  simp only [hostOps0]
  after_results
  all_goals rfl
theorem V1_v2 (c : Dev nD) : V1 m ρ c main_v2 = foldLoArr (m ((c : Thread nD τ).loc main_arg2) : FVec Ideal S64x64 .f32) (m ((c : Thread nD τ).loc main_arg1) : FVec Ideal S64x128 .f32) := by
  show StableHlo.after hostOps0 (W0 m ρ c) (Proc.devRef .tc main_v2) = _
  simp only [hostOps0]
  after_results
  all_goals rfl
theorem V1_v3 (c : Dev nD) : V1 m ρ c main_v3 = foldHiArr (m ((c : Thread nD τ).loc main_arg4) : FVec Ideal S64x64 .f32) (m ((c : Thread nD τ).loc main_arg1) : FVec Ideal S64x128 .f32) := by
  show StableHlo.after hostOps0 (W0 m ρ c) (Proc.devRef .tc main_v3) = _
  simp only [hostOps0]
  after_results
  all_goals rfl
theorem V1_v4 (c : Dev nD) : V1 m ρ c main_v4 = rowArr (m ((c : Thread nD τ).loc main_arg3) : FVec Ideal S64 .f32) := by
  show StableHlo.after hostOps0 (W0 m ρ c) (Proc.devRef .tc main_v4) = _
  simp only [hostOps0]
  after_results
  all_goals rfl
theorem V1_v5 (c : Dev nD) : V1 m ρ c main_v5 = rowArr (m ((c : Thread nD τ).loc main_arg5) : FVec Ideal S64 .f32) := by
  show StableHlo.after hostOps0 (W0 m ρ c) (Proc.devRef .tc main_v5) = _
  simp only [hostOps0]
  after_results
  all_goals rfl
theorem V1_v6 (c : Dev nD) : V1 m ρ c main_v6 = rowArr (m ((c : Thread nD τ).loc main_arg7) : FVec Ideal S64 .f32) := by
  show StableHlo.after hostOps0 (W0 m ρ c) (Proc.devRef .tc main_v6) = _
  simp only [hostOps0]
  after_results
  all_goals rfl

/-- After the projection region the queries' buffer holds the scaled projection. -/
theorem V2_q (c : Dev nD) : V2 m ρ c main_v7_0 = qArr (m ((c : Thread nD τ).loc main_arg0) : FVec Ideal S16384x64 .f32) (m ((c : Thread nD τ).loc main_arg1) : FVec Ideal S64x128 .f32) (m ((c : Thread nD τ).loc main_arg2) : FVec Ideal S64x64 .f32) (m ((c : Thread nD τ).loc main_arg3) : FVec Ideal S64 .f32) := by
  refine ((W2_arr m ρ c 7).trans (final0_7 (V1 m ρ) c)).trans ?_
  rw [V1_arg0, V1_v2, V1_v4]

/-- After the projection region the keys' buffer holds their projection. -/
theorem V2_k (c : Dev nD) : V2 m ρ c main_v7_1 = kArr (m ((c : Thread nD τ).loc main_arg0) : FVec Ideal S16384x64 .f32) (m ((c : Thread nD τ).loc main_arg1) : FVec Ideal S64x128 .f32) (m ((c : Thread nD τ).loc main_arg4) : FVec Ideal S64x64 .f32) (m ((c : Thread nD τ).loc main_arg5) : FVec Ideal S64 .f32) := by
  refine ((W2_arr m ρ c 8).trans (final0_8 (V1 m ρ) c)).trans ?_
  rw [V1_arg0, V1_v3, V1_v5]

/-- After the projection region the values' buffer holds their projection. -/
theorem V2_v (c : Dev nD) : V2 m ρ c main_v7_2 = vArr (m ((c : Thread nD τ).loc main_arg0) : FVec Ideal S16384x64 .f32) (m ((c : Thread nD τ).loc main_arg6) : FVec Ideal S64x64 .f32) (m ((c : Thread nD τ).loc main_arg7) : FVec Ideal S64 .f32) := by
  refine ((W2_arr m ρ c 9).trans (final0_9 (V1 m ρ) c)).trans ?_
  rw [V1_arg0, V1_arg6, V1_v6]

/-- At the last boundary the result buffer holds the folded arrangement of the arguments as launched. -/
theorem result_eq (c : Dev nD) :
    W3 m ρ c (Proc.devRef .tc main_v8) = foldedOut (m ((c : Thread nD τ).loc main_arg0) : FVec Ideal S16384x64 .f32) (m ((c : Thread nD τ).loc main_arg1) : FVec Ideal S64x128 .f32) (m ((c : Thread nD τ).loc main_arg2) : FVec Ideal S64x64 .f32) (m ((c : Thread nD τ).loc main_arg3) : FVec Ideal S64 .f32) (m ((c : Thread nD τ).loc main_arg4) : FVec Ideal S64x64 .f32) (m ((c : Thread nD τ).loc main_arg5) : FVec Ideal S64 .f32) (m ((c : Thread nD τ).loc main_arg6) : FVec Ideal S64x64 .f32) (m ((c : Thread nD τ).loc main_arg7) : FVec Ideal S64 .f32) := by
  refine ((W3_arr m ρ c 3).trans (final1_3 (V2 m ρ) c)).trans ?_
  rw [V2_q, V2_k, V2_v]
  exact attn_eq_folded _ _ _ _ _ _ _ _

/-- The idealized kernel's run: the result is the folded arrangement of the arguments, which end as launched. -/
theorem run : θ_run defs (onTc (τ := τ) (main (F := Ideal))) ⟨m, fun _ => 0, ρ⟩ (fun r => ∀ c : Dev nD,
      r.2.mem ((c.tc : Thread nD τ).loc main_v8) = foldedOut (m ((c : Thread nD τ).loc main_arg0) : FVec Ideal S16384x64 .f32) (m ((c : Thread nD τ).loc main_arg1) : FVec Ideal S64x128 .f32) (m ((c : Thread nD τ).loc main_arg2) : FVec Ideal S64x64 .f32) (m ((c : Thread nD τ).loc main_arg3) : FVec Ideal S64 .f32) (m ((c : Thread nD τ).loc main_arg4) : FVec Ideal S64x64 .f32) (m ((c : Thread nD τ).loc main_arg5) : FVec Ideal S64 .f32) (m ((c : Thread nD τ).loc main_arg6) : FVec Ideal S64x64 .f32) (m ((c : Thread nD τ).loc main_arg7) : FVec Ideal S64 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (KRun.run_result m ρ)

end Cert.KernelIdeal.KOut

end
-- ==== Proof.RefValue.lean ====
import proofs.«130108_j65481071401183_2_alg».proof.Proof.Gen.ReferenceIdeal.Read
import proofs.«130108_j65481071401183_2_alg».proof.Proof.Spec
import proofs.«130108_j65481071401183_2_alg».proof.Proof.LibKeepdims

/-! # The reference computes the two-step arrangement

Read one operation at a time and entry by entry, the reference program's result is the two-step arrangement of attention:
the two mixing products and weight products with their biases, the scores scaled after the product, the row maximum and the
exponentials, the normalizer, the normalized weights, and their product with the values. -/

noncomputable section

namespace Cert.ReferenceIdeal.RefValue

open Cert.ReferenceIdeal Cert.ReferenceIdeal.Read Idealize.ShloMosaic Idealize.ShloMosaic.ValueIdx Cert.Attn

section Stages

variable (x0 : (⟨S16384x64, .f32⟩ : BufTy).Contents (Elt Ideal)) (x1 : (⟨S64x128, .f32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))

/-- Two indices of a two-axis array with the same coordinates are equal. -/
theorem idx2_ext {n0 n1 : ℕ} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

/-- Two indices of a one-axis array with the same coordinate are equal. -/
theorem idx1_ext {n0 : ℕ} (i j : (⟨1, ![n0]⟩ : Shape).Idx) (h0 : (i 0).val = (j 0).val) : i = j :=
  funext fun a => Fin.ext (by match a with | ⟨0, _⟩ => exact h0)

/-! ## Queries -/

/-- Entry (a, b) of the transposed left slice is entry (b, a) of the left 64 columns. -/
theorem v2_eq (a b : Fin 64) : val_main_v2 (F := Ideal) x1 (ix2 a b) = lo x1 b a := by
  rw [val_main_v2_apply, val_main_v0_apply]
  exact congrArg x1 (idx2_ext _ _ rfl rfl)

/-- The first mixing product: row n of the tokens against row b of the first mixing matrix. -/
theorem v3_eq (n : Fin 16384) (b : Fin 64) :
    val_main_v3 (F := Ideal) x0 x1 (ix2 n b) = ∑ a, mat x0 n a * lo x1 b a := by
  rw [val_main_v3_apply]
  refine Finset.sum_congr rfl fun a _ => ?_
  have i1 : lidx_main_v3 (ix2 n b) a = ix2 n a := idx2_ext _ _ rfl rfl
  have i2 : ridx_main_v3 (ix2 n b) a = ix2 a b := idx2_ext _ _ rfl rfl
  rw [i1, i2, v2_eq, mat_apply]

/-- Entry (b, c) of the transposed query weights is entry (c, b) of the weights. -/
theorem v4_eq (b c : Fin 64) : val_main_v4 (F := Ideal) x2 (ix2 b c) = mat x2 c b := by
  rw [val_main_v4_apply]
  exact congrArg x2 (idx2_ext _ _ rfl rfl)

/-- The query weight product of the mixed rows. -/
theorem v5_eq (n : Fin 16384) (c : Fin 64) :
    val_main_v5 (F := Ideal) x0 x1 x2 (ix2 n c) = ∑ b, (∑ a, mat x0 n a * lo x1 b a) * mat x2 c b := by
  rw [val_main_v5_apply]
  refine Finset.sum_congr rfl fun b _ => ?_
  have i1 : lidx_main_v5 (ix2 n c) b = ix2 n b := idx2_ext _ _ rfl rfl
  have i2 : ridx_main_v5 (ix2 n c) b = ix2 b c := idx2_ext _ _ rfl rfl
  rw [i1, i2, v3_eq, v4_eq]

/-- The query bias broadcast along the rows is the bias entry of the column. -/
theorem v7_eq (n : Fin 16384) (c : Fin 64) : val_main_v7 (F := Ideal) x3 (ix2 n c) = vec x3 c := by
  rw [val_main_v7_apply, val_main_v6_apply]
  exact congrArg x3 (idx1_ext _ _ rfl)

/-- The reference's queries are the two-step queries. -/
theorem v8_eq (n : Fin 16384) (c : Fin 64) :
    val_main_v8 (F := Ideal) x0 x1 x2 x3 (ix2 n c) = LibAttention.gQ (mat x0) (lo x1) (mat x2) (vec x3) n c := by
  rw [val_main_v8_apply]
  show val_main_v5 (F := Ideal) x0 x1 x2 (ix2 n c) + val_main_v7 (F := Ideal) x3 (ix2 n c) = _
  rw [v5_eq, v7_eq]
  rfl

/-! ## Keys -/

/-- Entry (a, b) of the transposed right slice is entry (b, a) of the right 64 columns. -/
theorem v9_eq (a b : Fin 64) : val_main_v9 (F := Ideal) x1 (ix2 a b) = hi x1 b a := by
  rw [val_main_v9_apply, val_main_v1_apply]
  exact congrArg x1 (idx2_ext _ _ rfl rfl)

/-- The second mixing product. -/
theorem v10_eq (n : Fin 16384) (b : Fin 64) :
    val_main_v10 (F := Ideal) x0 x1 (ix2 n b) = ∑ a, mat x0 n a * hi x1 b a := by
  rw [val_main_v10_apply]
  refine Finset.sum_congr rfl fun a _ => ?_
  have i1 : lidx_main_v10 (ix2 n b) a = ix2 n a := idx2_ext _ _ rfl rfl
  have i2 : ridx_main_v10 (ix2 n b) a = ix2 a b := idx2_ext _ _ rfl rfl
  rw [i1, i2, v9_eq, mat_apply]

/-- Entry (b, c) of the transposed key weights is entry (c, b) of the weights. -/
theorem v11_eq (b c : Fin 64) : val_main_v11 (F := Ideal) x4 (ix2 b c) = mat x4 c b := by
  rw [val_main_v11_apply]
  exact congrArg x4 (idx2_ext _ _ rfl rfl)

/-- The key weight product of the mixed rows. -/
theorem v12_eq (n : Fin 16384) (c : Fin 64) :
    val_main_v12 (F := Ideal) x0 x1 x4 (ix2 n c) = ∑ b, (∑ a, mat x0 n a * hi x1 b a) * mat x4 c b := by
  rw [val_main_v12_apply]
  refine Finset.sum_congr rfl fun b _ => ?_
  have i1 : lidx_main_v12 (ix2 n c) b = ix2 n b := idx2_ext _ _ rfl rfl
  have i2 : ridx_main_v12 (ix2 n c) b = ix2 b c := idx2_ext _ _ rfl rfl
  rw [i1, i2, v10_eq, v11_eq]

/-- The key bias broadcast along the rows is the bias entry of the column. -/
theorem v14_eq (n : Fin 16384) (c : Fin 64) : val_main_v14 (F := Ideal) x5 (ix2 n c) = vec x5 c := by
  rw [val_main_v14_apply, val_main_v13_apply]
  exact congrArg x5 (idx1_ext _ _ rfl)

/-- The reference's keys are the two-step keys. -/
theorem v15_eq (n : Fin 16384) (c : Fin 64) :
    val_main_v15 (F := Ideal) x0 x1 x4 x5 (ix2 n c) = LibAttention.gK (mat x0) (hi x1) (mat x4) (vec x5) n c := by
  rw [val_main_v15_apply]
  show val_main_v12 (F := Ideal) x0 x1 x4 (ix2 n c) + val_main_v14 (F := Ideal) x5 (ix2 n c) = _
  rw [v12_eq, v14_eq]
  rfl

/-! ## Values -/

/-- Entry (a, c) of the transposed value weights is entry (c, a) of the weights. -/
theorem v16_eq (a c : Fin 64) : val_main_v16 (F := Ideal) x6 (ix2 a c) = mat x6 c a := by
  rw [val_main_v16_apply]
  exact congrArg x6 (idx2_ext _ _ rfl rfl)

/-- The value weight product of the token rows. -/
theorem v17_eq (n : Fin 16384) (c : Fin 64) :
    val_main_v17 (F := Ideal) x0 x6 (ix2 n c) = ∑ a, mat x0 n a * mat x6 c a := by
  rw [val_main_v17_apply]
  refine Finset.sum_congr rfl fun a _ => ?_
  have i1 : lidx_main_v17 (ix2 n c) a = ix2 n a := idx2_ext _ _ rfl rfl
  have i2 : ridx_main_v17 (ix2 n c) a = ix2 a c := idx2_ext _ _ rfl rfl
  rw [i1, i2, v16_eq, mat_apply x0]

/-- The value bias broadcast along the rows is the bias entry of the column. -/
theorem v19_eq (n : Fin 16384) (c : Fin 64) : val_main_v19 (F := Ideal) x7 (ix2 n c) = vec x7 c := by
  rw [val_main_v19_apply, val_main_v18_apply]
  exact congrArg x7 (idx1_ext _ _ rfl)

/-- The reference's values are the values of either arrangement. -/
theorem v20_eq (n : Fin 16384) (c : Fin 64) :
    val_main_v20 (F := Ideal) x0 x6 x7 (ix2 n c) = LibAttention.fV (mat x0) (mat x6) (vec x7) n c := by
  rw [val_main_v20_apply]
  show val_main_v17 (F := Ideal) x0 x6 (ix2 n c) + val_main_v19 (F := Ideal) x7 (ix2 n c) = _
  rw [v17_eq, v19_eq]
  rfl

/-! ## Scores -/

/-- Entry (c, j) of the transposed keys is entry (j, c) of the keys. -/
theorem v21_eq (c : Fin 64) (j : Fin 16384) :
    val_main_v21 (F := Ideal) x0 x1 x4 x5 (ix2 c j) = LibAttention.gK (mat x0) (hi x1) (mat x4) (vec x5) j c := by
  rw [val_main_v21_apply]
  have i1 : idx_main_v21 (ix2 c j) = ix2 j c := idx2_ext _ _ rfl rfl
  rw [i1, v15_eq]

/-- The unscaled scores: queries of row n against keys of row j. -/
theorem v22_eq (n j : Fin 16384) :
    val_main_v22 (F := Ideal) x0 x1 x2 x3 x4 x5 (ix2 n j) = ∑ c, LibAttention.gQ (mat x0) (lo x1) (mat x2) (vec x3) n c * LibAttention.gK (mat x0) (hi x1) (mat x4) (vec x5) j c := by
  rw [val_main_v22_apply]
  refine Finset.sum_congr rfl fun c _ => ?_
  have i1 : lidx_main_v22 (ix2 n j) c = ix2 n c := idx2_ext _ _ rfl rfl
  have i2 : ridx_main_v22 (ix2 n j) c = ix2 c j := idx2_ext _ _ rfl rfl
  rw [i1, i2, v8_eq, v21_eq]

/-- The reference's scaled scores are the two-step scores: the broadcast constant is the scale. -/
theorem v24_eq (n j : Fin 16384) :
    val_main_v24 (F := Ideal) x0 x1 x2 x3 x4 x5 (ix2 n j) = LibAttention.gS (mat x0) (lo x1) (hi x1) (mat x2) (mat x4) (vec x3) (vec x5) scale n j := by
  rw [val_main_v24_apply]
  show val_main_v22 (F := Ideal) x0 x1 x2 x3 x4 x5 (ix2 n j) * val_main_v23 (F := Ideal) (ix2 n j) = _
  rw [v22_eq, val_main_v23_apply, val_main_cst_apply]
  rfl

/-! ## Row maximum, weights, normalizer -/

/-- The reference's maximum reduction along a row is the running maximum, from the bottom element, of the row's scores. -/
theorem v25_eq (n : Fin 16384) :
    val_main_v25 (F := Ideal) x0 x1 x2 x3 x4 x5 (ix1 n)
      = (Finset.univ : Finset (Fin 16384)).fold max ⊥ (fun j => LibAttention.gS (mat x0) (lo x1) (hi x1) (mat x2) (mat x4) (vec x3) (vec x5) scale n j) := by
  have h : S16384x16384.Reduces [1] S16384 := by decide
  have hb : val_main_cst_0 (F := Ideal) (Shape.Idx.first Gen.h_S_) = ⊥ :=
    (val_main_cst_0_apply _).trans Cert.Gcn.ofBits_negInf_f32
  unfold val_main_v25
  refine (Host.reduce_eq_fold_single (FloatOps.maximumf (F := Ideal) (φ := .f32)) _ _
    Gen.reducesTo_S16384x16384_S16384_d1 h Gen.h_S_ (ix1 n)).trans ?_
  rw [hb]
  refine Finset.fold_congr fun (j : Fin 16384) _ => ?_
  show val_main_v24 (F := Ideal) x0 x1 x2 x3 x4 x5 (h.lift (ix1 n) j) = _
  have i1 : h.lift (ix1 n) j = ix2 n j := idx2_ext _ _ rfl rfl
  rw [i1, v24_eq]

/-- The maximum with the bottom element changes nothing: the reference's row maximum is the two-step row maximum. -/
theorem v27_eq (n : Fin 16384) :
    val_main_v27 (F := Ideal) x0 x1 x2 x3 x4 x5 (ix1 n) = LibAttention.gM (mat x0) (lo x1) (hi x1) (mat x2) (mat x4) (vec x3) (vec x5) scale n := by
  rw [val_main_v27_apply]
  show max (val_main_v26 (F := Ideal) (ix1 n)) (val_main_v25 (F := Ideal) x0 x1 x2 x3 x4 x5 (ix1 n)) = _
  rw [val_main_v26_apply, val_main_cst_1_apply, v25_eq]
  show max (Ideal.ofBits .f32 0xFF800000#32) _ = _
  rw [Cert.Gcn.ofBits_negInf_f32, max_bot_left]
  rfl

/-- The row maximum kept as a column and broadcast along the row reads the row's maximum at every entry. -/
theorem v29_eq (n j : Fin 16384) :
    val_main_v29 (F := Ideal) x0 x1 x2 x3 x4 x5 (ix2 n j) = LibAttention.gM (mat x0) (lo x1) (hi x1) (mat x2) (mat x4) (vec x3) (vec x5) scale n := by
  rw [val_main_v29_apply, val_main_v28_apply]
  have i1 : idx_main_v28 (idx_main_v29 (ix2 n j)) = ix1 n := idx1_ext _ _ rfl
  rw [i1, v27_eq]

/-- The reference's exponentials are the two-step unnormalized weights. -/
theorem v31_eq (n j : Fin 16384) :
    val_main_v31 (F := Ideal) x0 x1 x2 x3 x4 x5 (ix2 n j) = LibAttention.gP (mat x0) (lo x1) (hi x1) (mat x2) (mat x4) (vec x3) (vec x5) scale n j := by
  rw [val_main_v31_apply, val_main_v30_apply]
  show Ideal.exp (val_main_v24 (F := Ideal) x0 x1 x2 x3 x4 x5 (ix2 n j) - val_main_v29 (F := Ideal) x0 x1 x2 x3 x4 x5 (ix2 n j)) = _
  rw [v24_eq, v29_eq]
  rfl

/-- The reference's sum reduction along a row, from zero, is the normalizer. -/
theorem v32_eq (n : Fin 16384) :
    val_main_v32 (F := Ideal) x0 x1 x2 x3 x4 x5 (ix1 n) = ∑ j, LibAttention.gP (mat x0) (lo x1) (hi x1) (mat x2) (mat x4) (vec x3) (vec x5) scale n j := by
  rw [val_main_v32_apply, val_main_cst_2_apply]
  show Ideal.ofBits .f32 0x00000000#32 + _ = _
  rw [Ideal.ofBits_zero_f32, zero_add]
  refine Finset.sum_congr rfl fun j _ => ?_
  have i1 : idx_main_v32 (ix1 n) j = ix2 n j := idx2_ext _ _ rfl rfl
  rw [i1, v31_eq]

/-- The normalizer kept as a column and broadcast along the row reads the row's normalizer at every entry. -/
theorem v34_eq (n j : Fin 16384) :
    val_main_v34 (F := Ideal) x0 x1 x2 x3 x4 x5 (ix2 n j) = ∑ j', LibAttention.gP (mat x0) (lo x1) (hi x1) (mat x2) (mat x4) (vec x3) (vec x5) scale n j' := by
  rw [val_main_v34_apply, val_main_v33_apply]
  have i1 : idx_main_v33 (idx_main_v34 (ix2 n j)) = ix1 n := idx1_ext _ _ rfl
  rw [i1, v32_eq]

/-- The reference's normalized weights. -/
theorem v35_eq (n j : Fin 16384) :
    val_main_v35 (F := Ideal) x0 x1 x2 x3 x4 x5 (ix2 n j)
      = Ideal.div (LibAttention.gP (mat x0) (lo x1) (hi x1) (mat x2) (mat x4) (vec x3) (vec x5) scale n j) (∑ j', LibAttention.gP (mat x0) (lo x1) (hi x1) (mat x2) (mat x4) (vec x3) (vec x5) scale n j') := by
  rw [val_main_v35_apply]
  show Ideal.div (val_main_v31 (F := Ideal) x0 x1 x2 x3 x4 x5 (ix2 n j)) (val_main_v34 (F := Ideal) x0 x1 x2 x3 x4 x5 (ix2 n j)) = _
  rw [v31_eq, v34_eq]

end Stages

/-- The reference's result, as the last stage of its operations, is the two-step arrangement of the argument arrays. -/
theorem ref_eq (x0 : (⟨S16384x64, .f32⟩ : BufTy).Contents (Elt Ideal)) (x1 : (⟨S64x128, .f32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) :
    val_main_v36 (F := Ideal) x0 x1 x2 x3 x4 x5 x6 x7 = twoStepOut x0 x1 x2 x3 x4 x5 x6 x7 := by
  funext i
  obtain ⟨n, c, rfl⟩ : ∃ (n : Fin 16384) (c : Fin 64), i = ix2 n c := ⟨i 0, i 1, eq_ix2 i⟩
  rw [twoStepOut, arr2_ix2, val_main_v36_apply]
  unfold LibAttention.gO
  refine Finset.sum_congr rfl fun j _ => ?_
  have i1 : lidx_main_v36 (ix2 n c) j = ix2 n j := idx2_ext _ _ rfl rfl
  have i2 : ridx_main_v36 (ix2 n c) j = ix2 j c := idx2_ext _ _ rfl rfl
  rw [i1, i2, v35_eq, v20_eq]

end Cert.ReferenceIdeal.RefValue

end
-- ==== Proof.Finite.lean ====
import proofs.«130108_j65481071401183_2_alg».proof.Pre_finite_inputs
import proofs.«130108_j65481071401183_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

/-! # Under the precondition every entry of every argument is a real number

The precondition is the conjunction, over the eight argument arrays, of "every entry's absolute value is strictly below +∞".
On the extended reals the absolute value of −∞ and of +∞ is +∞, which is not below +∞; so an entry that passes is neither
infinity: it is a real number. -/

noncomputable section

namespace Cert.Pre_finite_inputs.Finite

open Cert.Pre_finite_inputs Idealize.ShloMosaic Idealize.ShloMosaic.ValueIdx

/-- The scalar shape has exactly one index. -/
theorem subsingleton_scalarIdx : Subsingleton S_.Idx := ⟨fun a b => funext fun d => d.elim0⟩

/-- The single-precision word of +∞ is the top of the extended reals. -/
theorem ofBits_posInf_f32 : Ideal.ofBits .f32 0x7F800000#32 = ⊤ := by simp [Ideal.ofBits, Ideal.ieee]

/-- A strict comparison that answers 1 holds. -/
theorem lt_of_cmp_olt {x y : EReal} (h : Ideal.cmp .olt x y = 1#1) : x < y := by
  by_cases hlt : x < y
  · exact hlt
  · exfalso
    simp [Ideal.cmp, hlt] at h

/-- An extended real whose absolute value is strictly below +∞ is a real number: the absolute value of either infinity
is +∞, which is not below itself. -/
theorem real_of_lt (x : EReal) (h : Ideal.cmp .olt (max x (-x)) ⊤ = 1#1) : ∃ r : ℝ, x = (r : EReal) := by
  have h' := lt_of_cmp_olt h
  induction x using EReal.rec with
  | bot => simp at h'
  | coe r => exact ⟨r, rfl⟩
  | top => simp at h'

/-- If the conjunction over all entries of "the absolute value is strictly below +∞" answers 1, every entry is a real
number: a conjunction that answers 1 met only 1s, and each 1 is the comparison at that entry. -/
theorem real_of_all {s : Shape} {axes : List (Fin s.rank)} (x : FVec Ideal s .f32) (dims : Fin S_.rank → Fin s.rank)
    (bc : S_.BroadcastsInDim s dims) (init : IVec S_ 1) (hr : s.ReducesTo axes S_) (hu : 0 < S_.numel) (j : S_.Idx)
    (e : Host.reduce IntOp.andi
      (cmpf .olt (Host.absf x) (broadcastInDim s dims bc (constant (F := Ideal) S_ .f32 0x7F800000#32))) init hr hu j = 1#1)
    (i : s.Idx) : ∃ r : ℝ, x i = (r : EReal) := by
  haveI := subsingleton_scalarIdx
  have e1 := Host.reduce_andi_all _ _ hr hu j e i
  have e2 : Ideal.cmp .olt (max (x i) (-(x i))) (Ideal.ofBits .f32 0x7F800000#32) = 1#1 := e1
  rw [ofBits_posInf_f32] at e2
  exact real_of_lt (x i) e2

/-- A conjunction of two one-bit words that answers 1 has both words 1. -/
theorem andi_split (x y : IVec S_ 1) (i : S_.Idx) (h : andi x y i = 1#1) : x i = 1#1 ∧ y i = 1#1 :=
  IntOp.andi_eq_one.1 h

/-- Under the precondition, each argument array holds real numbers only. -/
theorem all_real [Facts] (a0 : FVec Ideal S16384x64 .f32) (a1 : FVec Ideal S64x128 .f32) (a2 : FVec Ideal S64x64 .f32)
    (a3 : FVec Ideal S64 .f32) (a4 : FVec Ideal S64x64 .f32) (a5 : FVec Ideal S64 .f32) (a6 : FVec Ideal S64x64 .f32)
    (a7 : FVec Ideal S64 .f32) (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) := by
  have h0 := congrFun h ix0
  dsimp only [fn, fn_part1, fn_part2] at h0
  obtain ⟨h1, e7⟩ := andi_split _ _ _ h0
  obtain ⟨h2, e6⟩ := andi_split _ _ _ h1
  obtain ⟨h3, e5⟩ := andi_split _ _ _ h2
  obtain ⟨h4, e4⟩ := andi_split _ _ _ h3
  obtain ⟨h5, e3⟩ := andi_split _ _ _ h4
  obtain ⟨h6, e2⟩ := andi_split _ _ _ h5
  obtain ⟨e0, e1⟩ := andi_split _ _ _ h6
  exact ⟨real_of_all a0 _ _ _ _ _ _ e0, real_of_all a1 _ _ _ _ _ _ e1, real_of_all a2 _ _ _ _ _ _ e2,
    real_of_all a3 _ _ _ _ _ _ e3, real_of_all a4 _ _ _ _ _ _ e4, real_of_all a5 _ _ _ _ _ _ e5,
    real_of_all a6 _ _ _ _ _ _ e6, real_of_all a7 _ _ _ _ _ _ e7⟩

end Cert.Pre_finite_inputs.Finite

end
-- ==== Proof.lean ====
/- Single-head attention over 16384 tokens of 64 features: the kernel against its reference, on the extended reals.

   The kernel multiplies each weight matrix into its half of the parameter matrix on the host, projects the token rows to
   scaled queries, keys and values in a first region, and in a second region takes, per block of 256 queries, the scores
   against all keys, their row maximum, the exponentials, and the weighted sum of the values divided by the normalizer. The
   reference applies the mixing matrix and then the weight matrix to each token, scales the scores after the product, and
   normalizes the weights before the weighted sum. The scale is the same word (one eighth) on both sides.

   On the extended reals the two results are the folded and the two-step arrangement of one computation; they agree where
   every argument entry is a real number, which is what the precondition says: matrix products associate, a common factor moves
   across a finite sum, and a finite sum divided by the nonzero normalizer is the sum of the quotients. The three frames are
   the generated ones; the one rewrite of the idealization (a narrowing to a shorter float format and back is the identity on
   the extended reals) is its rule's own statement. -/
import proofs.«130108_j65481071401183_2_alg».proof.Defs
import proofs.«130108_j65481071401183_2_alg».proof.Proof.Gen.Kernel
import proofs.«130108_j65481071401183_2_alg».proof.Proof.Gen.Kernel.Skeleton
import proofs.«130108_j65481071401183_2_alg».proof.Proof.Gen.Kernel.Launch
import proofs.«130108_j65481071401183_2_alg».proof.Proof.Gen.Kernel.Points
import proofs.«130108_j65481071401183_2_alg».proof.Proof.Gen.Kernel.Frame
import proofs.«130108_j65481071401183_2_alg».proof.Proof.Gen.KernelIdeal
import proofs.«130108_j65481071401183_2_alg».proof.Proof.Gen.KernelIdeal.Skeleton
import proofs.«130108_j65481071401183_2_alg».proof.Proof.Gen.KernelIdeal.Launch
import proofs.«130108_j65481071401183_2_alg».proof.Proof.Gen.KernelIdeal.Points
import proofs.«130108_j65481071401183_2_alg».proof.Proof.Gen.KernelIdeal.Frame
import proofs.«130108_j65481071401183_2_alg».proof.Proof.Gen.ReferenceIdeal
import proofs.«130108_j65481071401183_2_alg».proof.Proof.Gen.ReferenceIdeal.Run
import proofs.«130108_j65481071401183_2_alg».proof.Proof.Gen.ReferenceIdeal.Read
import proofs.«130108_j65481071401183_2_alg».proof.Proof.Gen.Pre_finite_inputs
import proofs.«130108_j65481071401183_2_alg».proof.Proof.KernelValue
import proofs.«130108_j65481071401183_2_alg».proof.Proof.RefValue
import proofs.«130108_j65481071401183_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Attn

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: the weights narrowed to the shorter float format and widened back are, on the extended
    reals, the weights. -/
theorem preserves : Cert.preserves_Kernel_KernelIdeal :=
  IdealRules.truncf_extf.statement Cert.KernelIdeal.S256x16384 .f32 .bf16

/-- The scale word is the real number one eighth: significand `2²³` at exponent `2⁻²⁶`. -/
theorem scale_real : ∃ r : ℝ, scale = (r : EReal) := by
  refine ⟨(1 / 8 : ℝ), ?_⟩
  unfold scale
  simp [Ideal.ofBits, Ideal.ieee]
  rw [← EReal.coe_mul]
  exact congrArg (fun r : ℝ => (r : EReal)) (by norm_num)

/-- At real entries the folded arrangement and the two-step arrangement are one array. -/
theorem folded_eq_twoStep (x : FVec Ideal Cert.KernelIdeal.S16384x64 .f32) (p : FVec Ideal Cert.KernelIdeal.S64x128 .f32)
    (wq : FVec Ideal Cert.KernelIdeal.S64x64 .f32) (bq : FVec Ideal Cert.KernelIdeal.S64 .f32)
    (wk : FVec Ideal Cert.KernelIdeal.S64x64 .f32) (bk : FVec Ideal Cert.KernelIdeal.S64 .f32)
    (wv : FVec Ideal Cert.KernelIdeal.S64x64 .f32) (bv : FVec Ideal Cert.KernelIdeal.S64 .f32)
    (hx : ∀ i, ∃ r : ℝ, x i = (r : EReal)) (hp : ∀ i, ∃ r : ℝ, p i = (r : EReal))
    (hwq : ∀ i, ∃ r : ℝ, wq i = (r : EReal)) (hbq : ∀ i, ∃ r : ℝ, bq i = (r : EReal))
    (hwk : ∀ i, ∃ r : ℝ, wk i = (r : EReal)) (hbk : ∀ i, ∃ r : ℝ, bk i = (r : EReal))
    (hwv : ∀ i, ∃ r : ℝ, wv i = (r : EReal)) (hbv : ∀ i, ∃ r : ℝ, bv i = (r : EReal)) :
    foldedOut x p wq bq wk bk wv bv = twoStepOut x p wq bq wk bk wv bv := by
  funext i
  obtain ⟨n, c, rfl⟩ : ∃ (n : Fin 16384) (c : Fin 64), i = ix2 n c := ⟨i 0, i 1, eq_ix2 i⟩
  unfold foldedOut twoStepOut
  rw [arr2_ix2, arr2_ix2]
  exact Cert.LibAttention.attention_eq _ _ _ _ _ _ _ _ _ _ (fun a b => hx _) (fun a b => hp _) (fun a b => hp _)
    (fun a b => hwq _) (fun a b => hwk _) (fun a b => hwv _) (fun a => hbq _) (fun a => hbk _) (fun a => hbv _) scale_real n c

/-- From memories that agree on the arguments, both idealized programs run, and end with the same result array. -/
theorem algebraic : Cert.algebraic_KernelIdeal_ReferenceIdeal := by
  intro m ρ m' ρ' hpre hagree
  refine ⟨fun c => foldedOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KOut.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.ref_eq]
  obtain ⟨e0, e1, e2, e3, e4, e5, e6, e7⟩ := hagree c
  rw [e0, e1, e2, e3, e4, e5, e6, e7]
  obtain ⟨r0, r1, r2, r3, r4, r5, r6, r7⟩ := Cert.Pre_finite_inputs.Finite.all_real _ _ _ _ _ _ _ _ (hpre c)
  exact (folded_eq_twoStep _ _ _ _ _ _ _ _ r0 r1 r2 r3 r4 r5 r6 r7).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
